-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x512 : Shape := ⟨3, ![256, 512, 512]⟩
abbrev S512x512 : Shape := ⟨2, ![512, 512]⟩
abbrev S512x1024 : Shape := ⟨2, ![512, 1024]⟩
abbrev S_ : Shape := ⟨0, ![]⟩

class Facts : Prop where
  bcast_S_S256x512x512 : S_.BroadcastsInDim S256x512x512 (![] : Fin 0 → Fin S256x512x512.rank)
  reducesTo_S256x512x512_S_d0_1_2 : S256x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_arg4 : FVec F S512x1024 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  main_v23

def fn {F : FTy → Type} [FloatOps F] (main_arg0 : FVec F S256x512x512 .f32) (main_arg1 : FVec F S512x512 .f32) (main_arg2 : FVec F S512x1024 .f32) (main_arg3 : FVec F S512x512 .f32) (main_arg4 : FVec F S512x1024 .f32) : IVec S_ 1 :=
  let main_v0 : FVec F S256x512x512 .f32 := Host.absf main_arg0
  let main_cst : FVec F S_ .f32 := constant S_ .f32 0x7F800000#32
  let main_v1 : FVec F S256x512x512 .f32 := broadcastInDim S256x512x512 ![] bcast_S_S256x512x512 main_cst
  let main_v2 : IVec S256x512x512 1 := cmpf .olt main_v0 main_v1
  let main_c : IVec S_ 1 := constantI S_ 1 1#1
  let main_v3 : IVec S_ 1 := (fun x v => Host.reduce IntOp.andi x v reducesTo_S256x512x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S256x512x512 : Shape := ⟨3, ![256, 512, 512]⟩
abbrev S512x512 : Shape := ⟨2, ![512, 512]⟩
abbrev S512x1024 : Shape := ⟨2, ![512, 1024]⟩
abbrev S1024x512 : Shape := ⟨2, ![1024, 512]⟩
abbrev S256x1x512 : Shape := ⟨3, ![256, 1, 512]⟩
abbrev S2x512x512 : Shape := ⟨3, ![2, 512, 512]⟩
abbrev S2x1x512 : Shape := ⟨3, ![2, 1, 512]⟩
abbrev S2x512 : Shape := ⟨2, ![2, 512]⟩
abbrev S2x512x1 : Shape := ⟨3, ![2, 512, 1]⟩
abbrev S256x512x1x1 : Shape := ⟨4, ![256, 512, 1, 1]⟩

abbrev nBuf : Space → Nat
  | .hbm => 20
  | .vmem => 10
  | .smem => 0
  | _ => 0

abbrev bufTy : (tb : Table) → Fin (tcTables nBuf tb) → BufTy
  | .hbm, ⟨0, _⟩ => ⟨S256x512x512, .f32⟩
  | .hbm, ⟨1, _⟩ => ⟨S512x512, .f32⟩
  | .hbm, ⟨2, _⟩ => ⟨S512x1024, .f32⟩
  | .hbm, ⟨3, _⟩ => ⟨S512x512, .f32⟩
  | .hbm, ⟨4, _⟩ => ⟨S512x1024, .f32⟩
  | .hbm, ⟨5, _⟩ => ⟨S512x512, .f32⟩
  | .hbm, ⟨6, _⟩ => ⟨S512x512, .bf16⟩
  | .hbm, ⟨7, _⟩ => ⟨S1024x512, .f32⟩
  | .hbm, ⟨8, _⟩ => ⟨S1024x512, .bf16⟩
  | .hbm, ⟨9, _⟩ => ⟨S512x512, .bf16⟩
  | .hbm, ⟨10, _⟩ => ⟨S512x512, .bf16⟩
  | .hbm, ⟨11, _⟩ => ⟨S512x512, .f32⟩
  | .hbm, ⟨12, _⟩ => ⟨S512x512, .bf16⟩
  | .hbm, ⟨13, _⟩ => ⟨S1024x512, .f32⟩
  | .hbm, ⟨14, _⟩ => ⟨S1024x512, .bf16⟩
  | .hbm, ⟨15, _⟩ => ⟨S512x512, .bf16⟩
  | .hbm, ⟨16, _⟩ => ⟨S512x512, .bf16⟩
  | .hbm, ⟨17, _⟩ => ⟨S256x512x512, .bf16⟩
  | .hbm, ⟨18, _⟩ => ⟨S256x1x512, .f32⟩
  | .hbm, ⟨19, _⟩ => ⟨S256x512x1x1, .f32⟩
  | .local _ .vmem, ⟨0, _⟩ => ⟨S2x512x512, .bf16⟩
  | .local _ .vmem, ⟨1, _⟩ => ⟨S2x512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2x1x512, .f32⟩
  | .local _ .vmem, ⟨9, _⟩ => ⟨S2x1x512, .f32⟩
  | _, _ => ⟨S256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S512x512_S512x512_1_0 : S512x512.Transposes [1, 0] S512x512
  bitsLt_bf16_f32 : FTy.bits .bf16 < FTy.bits .f32
  transposes_S512x1024_S1024x512_1_0 : S512x1024.Transposes [1, 0] S1024x512
  slices_S1024x512_S512x512_0_0 : S1024x512.Slices ![0, 0] S512x512
  slices_S1024x512_S512x512_512_0 : S1024x512.Slices ![512, 0] S512x512
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2x512x512_S1024x512 : S2x512x512.ShapeCasts S1024x512
  shapeCasts_S1024x512_S2x512x512 : S1024x512.ShapeCasts S2x512x512
  reduces_S2x512x512_S2x512 : S2x512x512.Reduces [2] S2x512
  shapeCasts_S2x512_S2x512x1 : S2x512.ShapeCasts S2x512x1
  broadcasts_S2x512x1_S2x512x512 : S2x512x1.Broadcasts S2x512x512
  reduces_S2x512x512_S2x512_2 : S2x512x512.Reduces [1] S2x512
  shapeCasts_S2x512_S2x1x512 : S2x512.ShapeCasts S2x1x512
  shapeCasts_S2x1x512_S2x512 : S2x1x512.ShapeCasts S2x512
  inb_S2x1x512_S2x1x512_0_0_0 : ∀ a, (![0, 0, 0] : Fin 3 → Nat) a + S2x1x512.size a ≤ S2x1x512.size a
  h_S2x1x512 : 0 < S2x1x512.numel
  shapeCasts_S256x1x512_S256x512x1x1 : S256x1x512.ShapeCasts S256x512x1x1
  dot_S1024x512_S512x512_S1024x512_1_0_0_1_n_n_wf : DotDims.WF S1024x512 S512x512 S1024x512 [1] [0] [0] [1] [] []
  dot_S2x512x512_S2x512x512_S2x512x512_2_2_1_1_0_0_wf : DotDims.WF S2x512x512 S2x512x512 S2x512x512 [2] [2] [1] [1] [0] [0]
  dot_S2x512x512_S2x512x512_S2x512x512_2_1_1_2_0_0_wf : DotDims.WF S2x512x512 S2x512x512 S2x512x512 [2] [1] [1] [2] [0] [0]
  dot_S2x512_S512x512_S2x512_1_0_0_1_n_n_wf : DotDims.WF S2x512 S512x512 S2x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S256x512x512.size a
  hwx0_0 : ∀ i : grid0.Coords, EltTy.bits .bf16 = 32 ∨ (Rect.block (s := S256x512x512) S2x512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x1x512.size a ≤ S256x1x512.size a
  hwx0_7 : ∀ i : grid0.Coords, EltTy.bits .f32 = 32 ∨ (Rect.block (s := S256x1x512) S2x1x512.size (cc0_transform_7 i) (hinb0_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S2x512x512_S2x512x512_S2x512x512_2_2_1_1_0_0 : DotDims S2x512x512 S2x512x512 S2x512x512 where
  lhsContracting := [2]
  rhsContracting := [2]
  lhsNonContracting := [1]
  rhsNonContracting := [1]
  lhsBatch := [0]
  rhsBatch := [0]
  wf := dot_S2x512x512_S2x512x512_S2x512x512_2_2_1_1_0_0_wf
def dot_S2x512x512_S2x512x512_S2x512x512_2_1_1_2_0_0 : DotDims S2x512x512 S2x512x512 S2x512x512 where
  lhsContracting := [2]
  rhsContracting := [1]
  lhsNonContracting := [1]
  rhsNonContracting := [2]
  lhsBatch := [0]
  rhsBatch := [0]
  wf := dot_S2x512x512_S2x512x512_S2x512x512_2_1_1_2_0_0_wf
def dot_S2x512_S512x512_S2x512_1_0_0_1_n_n : DotDims S2x512 S512x512 S2x512 where
  lhsContracting := [1]
  rhsContracting := [0]
  lhsNonContracting := [0]
  rhsNonContracting := [1]
  lhsBatch := []
  rhsBatch := []
  wf := dot_S2x512_S512x512_S2x512_1_0_0_1_n_n_wf

abbrev win0_0 : Pipeline.Window sig grid0 :=
  Pipeline.Window.ofSpec (Memref.whole main_v12) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S2x1x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x512x512 : Shape := ⟨3, ![256, 512, 512]⟩
abbrev S512x512 : Shape := ⟨2, ![512, 512]⟩
abbrev S512x1024 : Shape := ⟨2, ![512, 1024]⟩
abbrev S_ : Shape := ⟨0, ![]⟩
abbrev S256x512 : Shape := ⟨2, ![256, 512]⟩
abbrev S256x512x1 : Shape := ⟨3, ![256, 512, 1]⟩
abbrev S256x512x1024 : Shape := ⟨3, ![256, 512, 1024]⟩
abbrev S256x512x1x1 : Shape := ⟨4, ![256, 512, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x512x512, .f32⟩
  | .hbm, ⟨1, _⟩ => ⟨S512x512, .f32⟩
  | .hbm, ⟨2, _⟩ => ⟨S512x1024, .f32⟩
  | .hbm, ⟨3, _⟩ => ⟨S512x512, .f32⟩
  | .hbm, ⟨4, _⟩ => ⟨S512x1024, .f32⟩
  | .hbm, ⟨5, _⟩ => ⟨S256x512x512, .f32⟩
  | .hbm, ⟨6, _⟩ => ⟨S256x512x512, .f32⟩
  | .hbm, ⟨7, _⟩ => ⟨S_, .f32⟩
  | .hbm, ⟨8, _⟩ => ⟨S256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S256x512x1, .f32⟩
  | .hbm, ⟨13, _⟩ => ⟨S256x512x512, .f32⟩
  | .hbm, ⟨14, _⟩ => ⟨S256x512x512, .f32⟩
  | .hbm, ⟨15, _⟩ => ⟨S256x512x512, .f32⟩
  | .hbm, ⟨16, _⟩ => ⟨S_, .f32⟩
  | .hbm, ⟨17, _⟩ => ⟨S256x512, .f32⟩
  | .hbm, ⟨18, _⟩ => ⟨S256x512x1, .f32⟩
  | .hbm, ⟨19, _⟩ => ⟨S256x512x512, .f32⟩
  | .hbm, ⟨20, _⟩ => ⟨S256x512x512, .f32⟩
  | .hbm, ⟨21, _⟩ => ⟨S256x512x512, .f32⟩
  | .hbm, ⟨22, _⟩ => ⟨S256x512x1024, .f32⟩
  | .hbm, ⟨23, _⟩ => ⟨S256x512x512, .f32⟩
  | .hbm, ⟨24, _⟩ => ⟨S256x512x512, .f32⟩
  | .hbm, ⟨25, _⟩ => ⟨S256x512x512, .f32⟩
  | .hbm, ⟨26, _⟩ => ⟨S256x512x512, .f32⟩
  | .hbm, ⟨27, _⟩ => ⟨S_, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S256x512x1, .f32⟩
  | .hbm, ⟨33, _⟩ => ⟨S256x512x512, .f32⟩
  | .hbm, ⟨34, _⟩ => ⟨S256x512x512, .f32⟩
  | .hbm, ⟨35, _⟩ => ⟨S256x512x512, .f32⟩
  | .hbm, ⟨36, _⟩ => ⟨S_, .f32⟩
  | .hbm, ⟨37, _⟩ => ⟨S256x512, .f32⟩
  | .hbm, ⟨38, _⟩ => ⟨S256x512x1, .f32⟩
  | .hbm, ⟨39, _⟩ => ⟨S256x512x512, .f32⟩
  | .hbm, ⟨40, _⟩ => ⟨S256x512x512, .f32⟩
  | .hbm, ⟨41, _⟩ => ⟨S256x512x512, .f32⟩
  | .hbm, ⟨42, _⟩ => ⟨S256x512x1024, .f32⟩
  | .hbm, ⟨43, _⟩ => ⟨S256x512x512, .f32⟩
  | .hbm, ⟨44, _⟩ => ⟨S_, .f32⟩
  | .hbm, ⟨45, _⟩ => ⟨S256x512, .f32⟩
  | .hbm, ⟨46, _⟩ => ⟨S_, .f32⟩
  | .hbm, ⟨47, _⟩ => ⟨S256x512, .f32⟩
  | .hbm, ⟨48, _⟩ => ⟨S256x512, .f32⟩
  | .hbm, ⟨49, _⟩ => ⟨S256x512x1x1, .f32⟩
  | _, _ => ⟨S256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  reducesTo_S256x512x512_S256x512_d2 : S256x512x512.ReducesTo [2] S256x512
  h_S_ : 0 < S_.numel
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S256x512x1_S256x512x512_0_1_2 : S256x512x1.BroadcastsInDim S256x512x512 (![0, 1, 2] : Fin 3 → Fin S256x512x512.rank)
  concatenates_S256x512x512_S256x512x512_S256x512x1024_d2 : Shape.Concatenates [S256x512x512, S256x512x512] S256x512x1024 2
  reducesTo_S256x512x512_S256x512_d1 : S256x512x512.ReducesTo [1] S256x512
  shapeCasts_S256x512_S256x512x1x1 : S256x512.ShapeCasts S256x512x1x1
  dot_S256x512x512_S512x512_S256x512x512_2_1_01_0_n_n_wf : DotDims.WF S256x512x512 S512x512 S256x512x512 [2] [1] [0, 1] [0] [] []
  dot_S256x512x512_S256x512x512_S256x512x512_2_2_1_1_0_0_wf : DotDims.WF S256x512x512 S256x512x512 S256x512x512 [2] [2] [1] [1] [0] [0]
  dot_S256x512x512_S256x512x512_S256x512x512_2_1_1_2_0_0_wf : DotDims.WF S256x512x512 S256x512x512 S256x512x512 [2] [1] [1] [2] [0] [0]
  dot_S256x512x1024_S512x1024_S256x512x512_2_1_01_0_n_n_wf : DotDims.WF S256x512x1024 S512x1024 S256x512x512 [2] [1] [0, 1] [0] [] []

variable [Facts₀]

def dot_S256x512x512_S512x512_S256x512x512_2_1_01_0_n_n : DotDims S256x512x512 S512x512 S256x512x512 where
  lhsContracting := [2]
  rhsContracting := [1]
  lhsNonContracting := [0, 1]
  rhsNonContracting := [0]
  lhsBatch := []
  rhsBatch := []
  wf := dot_S256x512x512_S512x512_S256x512x512_2_1_01_0_n_n_wf
def dot_S256x512x512_S256x512x512_S256x512x512_2_2_1_1_0_0 : DotDims S256x512x512 S256x512x512 S256x512x512 where
  lhsContracting := [2]
  rhsContracting := [2]
  lhsNonContracting := [1]
  rhsNonContracting := [1]
  lhsBatch := [0]
  rhsBatch := [0]
  wf := dot_S256x512x512_S256x512x512_S256x512x512_2_2_1_1_0_0_wf
def dot_S256x512x512_S256x512x512_S256x512x512_2_1_1_2_0_0 : DotDims S256x512x512 S256x512x512 S256x512x512 where
  lhsContracting := [2]
  rhsContracting := [1]
  lhsNonContracting := [1]
  rhsNonContracting := [2]
  lhsBatch := [0]
  rhsBatch := [0]
  wf := dot_S256x512x512_S256x512x512_S256x512x512_2_1_1_2_0_0_wf
def dot_S256x512x1024_S512x1024_S256x512x512_2_1_01_0_n_n : DotDims S256x512x1024 S512x1024 S256x512x512 where
  lhsContracting := [2]
  rhsContracting := [1]
  lhsNonContracting := [0, 1]
  rhsNonContracting := [0]
  lhsBatch := []
  rhsBatch := []
  wf := dot_S256x512x1024_S512x1024_S256x512x512_2_1_01_0_n_n_wf

class Facts : Prop extends Facts₀ where

variable [Facts]
-- ==== Proof.Spec.lean ====
/-
  The mathematics of the two-block attention fuser, one batch row at a time, over the extended reals.

  A batch row is a 512 × 512 array `x` (sequence position × feature). One attention block computes
    q = x · Wᵢₙᵀ,   s[l,m] = Σ_d q[l,d] · x[m,d],   p = softmax over m of s (the row maximum subtracted first),
    mix = p · x,    out = [mix, q] · Wₒᵤₜᵀ,
  and the fuser is  mean over l of  block₂(tanh(block₁(x))).

  Two spellings of the same numbers are compared here.
  * The CONCATENATED form contracts the joined 1024-wide row `[mix, q]` with `Wₒᵤₜ` in one sum and takes the mean
    over the sequence last.
  * The SPLIT form contracts `mix` with the first 512 columns of `Wₒᵤₜ` and `q` with the last 512 and adds the two sums;
    in the second block it takes the means of `mix` and of `q` over the sequence FIRST and projects the two mean rows.
  Splitting a sum over 1024 columns into two sums over 512 is commutativity and associativity of addition and holds for
  all extended reals. Moving the mean through the projection is distributivity, which fails at infinities: it is used
  only in the second block, whose input `tanh(…)` lies in [-1, 1] whatever the first block produced, so that with finite
  second-block weights every number met there is a real.
-/
import Idealize.ShloMosaic.PureOps.Ideal

noncomputable section

namespace Cert.Spec

open Idealize.ShloMosaic

/-- An `a × b` array of extended reals. -/
abbrev Mat (a b : Nat) := Fin a → Fin b → EReal

/-- Column `c` of the first half of a 1024-wide row. -/
def lo (c : Fin 512) : Fin 1024 := ⟨c.val, by omega⟩
/-- Column `c` of the second half of a 1024-wide row. -/
def hi (c : Fin 512) : Fin 1024 := ⟨512 + c.val, by omega⟩

/-- The transpose. -/
def tr {a b : Nat} (w : Mat a b) : Mat b a := fun i j => w j i
/-- The first 512 columns of a 512 × 1024 weight, transposed: `(loT o) k d = o d k`. -/
def loT (o : Mat 512 1024) : Mat 512 512 := fun k d => o d (lo k)
/-- The last 512 columns of a 512 × 1024 weight, transposed: `(hiT o) k d = o d (512 + k)`. -/
def hiT (o : Mat 512 1024) : Mat 512 512 := fun k d => o d (hi k)

/-- The matrix product `(x · w)[l,e] = Σ_d x[l,d] · w[d,e]`. -/
def mul (x w : Mat 512 512) : Mat 512 512 := fun l e => ∑ d : Fin 512, x l d * w d e

/-- The scores `s[l,m] = Σ_d q[l,d] · x[m,d]`. -/
def scores (q x : Mat 512 512) : Mat 512 512 := fun l m => ∑ d : Fin 512, q l d * x m d

/-- The maximum of row `l`, taken from −∞. -/
def rowMax (s : Mat 512 512) : Fin 512 → EReal := fun l => (Finset.univ : Finset (Fin 512)).fold max ⊥ (s l)

/-- `exp (s[l,m] − max_m s[l,m])`. -/
def expo (s : Mat 512 512) : Mat 512 512 := fun l m => Ideal.exp (s l m - rowMax s l)

/-- The softmax denominator of row `l`. -/
def denom (s : Mat 512 512) : Fin 512 → EReal := fun l => ∑ m : Fin 512, expo s l m

/-- The softmax over the second index. -/
def softmax (s : Mat 512 512) : Mat 512 512 := fun l m => Ideal.div (expo s l m) (denom s l)

/-- The attention mix `softmax(scores q x) · x`. -/
def attnMix (x q : Mat 512 512) : Mat 512 512 := mul (softmax (scores q x)) x

/-- The joined row `[mix, q]`. -/
def cat (mix q : Mat 512 512) : Mat 512 1024 := fun l c =>
  if h : c.val < 512 then mix l ⟨c.val, h⟩ else q l ⟨c.val - 512, by omega⟩

/-- The output projection of the joined row: `Σ_c [mix, q][l,c] · o[d,c]`. -/
def outCat (mix q : Mat 512 512) (o : Mat 512 1024) : Mat 512 512 := fun l d => ∑ c : Fin 1024, cat mix q l c * o d c

/-- The output projection as two products added: `mix · wa + q · wb`. -/
def outSplit (mix q wa wb : Mat 512 512) : Mat 512 512 := fun l d => mul mix wa l d + mul q wb l d

/-- One attention block, concatenated form, weights as the reference holds them (`w[e,d]`, `o[d,c]`). -/
def blockCat (x : Mat 512 512) (w : Mat 512 512) (o : Mat 512 1024) : Mat 512 512 :=
  outCat (attnMix x (mul x (tr w))) (mul x (tr w)) o

/-- One attention block, split form, weights as the kernel holds them (`wi[d,e]`, `wa[c,d]`, `wb[c,d]`). -/
def blockSplit (x wi wa wb : Mat 512 512) : Mat 512 512 :=
  outSplit (attnMix x (mul x wi)) (mul x wi) wa wb

/-- `tanh`, entry by entry. -/
def th (y : Mat 512 512) : Mat 512 512 := fun l d => Ideal.tanh (y l d)

/-- The mean over the sequence of column `d`: the column's sum divided by `n`. -/
def colMean (y : Mat 512 512) (n : EReal) : Fin 512 → EReal := fun d => Ideal.div (∑ l : Fin 512, y l d) n

/-- The fuser's result for one batch row, concatenated form: the mean over the sequence of the second block's output. -/
def pooledCat (x w1 : Mat 512 512) (o1 : Mat 512 1024) (w2 : Mat 512 512) (o2 : Mat 512 1024) (n : EReal) : Fin 512 → EReal :=
  colMean (blockCat (th (blockCat x w1 o1)) w2 o2) n

/-- The fuser's result for one batch row, split form: the second block's `mix` and `q` averaged over the sequence first,
    the two mean rows projected and added. -/
def pooledSplit (x wi1 wa1 wb1 wi2 wa2 wb2 : Mat 512 512) (n : EReal) : Fin 512 → EReal := fun d =>
  (∑ k : Fin 512, colMean (attnMix (th (blockSplit x wi1 wa1 wb1)) (mul (th (blockSplit x wi1 wa1 wb1)) wi2)) n k * wa2 k d)
    + (∑ k : Fin 512, colMean (mul (th (blockSplit x wi1 wa1 wb1)) wi2) n k * wb2 k d)

/-- A sum over 1024 columns is the sum over the first 512 plus the sum over the last 512. -/
theorem sum_split (f : Fin 1024 → EReal) : ∑ c : Fin 1024, f c = (∑ k : Fin 512, f (lo k)) + ∑ k : Fin 512, f (hi k) := by
  exact Fin.sum_univ_add (M := EReal) (a := 512) (b := 512) f

/-- The joined row at a column of the first half is the mix entry. -/
theorem cat_lo (mix q : Mat 512 512) (l k : Fin 512) : cat mix q l (lo k) = mix l k := by
  have h : (lo k).val < 512 := k.isLt
  rw [cat, dif_pos h]
  rfl

/-- The joined row at a column of the second half is the query entry. -/
theorem cat_hi (mix q : Mat 512 512) (l k : Fin 512) : cat mix q l (hi k) = q l k := by
  have h : ¬ (hi k).val < 512 := by simp [hi]
  rw [cat, dif_neg h]
  congr 1
  apply Fin.ext
  simp [hi]

/-- The output projection split in two: the 1024-wide contraction is the two 512-wide ones added. -/
theorem outSplit_eq_outCat (mix q : Mat 512 512) (o : Mat 512 1024) :
    outSplit mix q (loT o) (hiT o) = outCat mix q o := by
  funext l d
  simp only [outSplit, outCat, mul, loT, hiT]
  rw [sum_split]
  simp only [cat_lo, cat_hi]

/-- The two forms of one block agree on all extended reals: the 1024-wide contraction split in two. -/
theorem blockSplit_eq_blockCat (x w : Mat 512 512) (o : Mat 512 1024) :
    blockSplit x (tr w) (loT o) (hiT o) = blockCat x w o := by
  unfold blockSplit blockCat
  exact outSplit_eq_outCat _ _ o

/-- A sum of coerced reals is the coercion of the real sum. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem real_sum {ι : Type} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-- A product of two reals is a real. -/
theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- `tanh` of any extended real is a real: −1 at −∞, 1 at +∞, the real `tanh` in between. -/
theorem real_tanh (a : EReal) : ∃ r : ℝ, Ideal.tanh a = (r : EReal) := by
  induction a using EReal.rec with
  | bot => exact ⟨-1, by simp⟩
  | coe r => exact ⟨Real.tanh r, Ideal.tanh_coe r⟩
  | top => exact ⟨1, by simp⟩

/-- A product of real matrices is real. -/
theorem real_mulM (x w : Mat 512 512) (hx : ∀ i j, ∃ r : ℝ, x i j = (r : EReal))
    (hw : ∀ i j, ∃ r : ℝ, w i j = (r : EReal)) : ∀ l e, ∃ r : ℝ, mul x w l e = (r : EReal) :=
  fun l e => real_sum _ _ (fun d => real_mul (hx l d) (hw d e))

/-- The scores of real matrices are real. -/
theorem real_scores (q x : Mat 512 512) (hq : ∀ i j, ∃ r : ℝ, q i j = (r : EReal))
    (hx : ∀ i j, ∃ r : ℝ, x i j = (r : EReal)) : ∀ l m, ∃ r : ℝ, scores q x l m = (r : EReal) :=
  fun l m => real_sum _ _ (fun d => real_mul (hq l d) (hx m d))

/-- The maximum of a row of 512 reals is a real: it is below +∞ because every entry is, and above −∞ because
    the first entry is. -/
theorem real_rowMax (s : Mat 512 512) (hs : ∀ l m, ∃ r : ℝ, s l m = (r : EReal)) (l : Fin 512) :
    ∃ r : ℝ, rowMax s l = (r : EReal) := by
  have htop : rowMax s l ≠ ⊤ := by
    apply ne_of_lt
    show (Finset.univ : Finset (Fin 512)).fold max ⊥ (s l) < ⊤
    rw [Finset.fold_max_lt]
    refine ⟨bot_lt_top, fun m _ => ?_⟩
    obtain ⟨r, hr⟩ := hs l m
    rw [hr]; exact EReal.coe_lt_top r
  have hbot : rowMax s l ≠ ⊥ := by
    apply ne_of_gt
    show ⊥ < (Finset.univ : Finset (Fin 512)).fold max ⊥ (s l)
    rw [Finset.lt_fold_max]
    refine Or.inr ⟨⟨0, by omega⟩, Finset.mem_univ _, ?_⟩
    obtain ⟨r, hr⟩ := hs l ⟨0, by omega⟩
    rw [hr]; exact EReal.bot_lt_coe r
  exact ⟨(rowMax s l).toReal, (EReal.coe_toReal htop hbot).symm⟩

/-- The exponential of a real score minus its real row maximum is a positive real. -/
theorem real_expo (s : Mat 512 512) (hs : ∀ l m, ∃ r : ℝ, s l m = (r : EReal)) (l m : Fin 512) :
    ∃ r : ℝ, 0 < r ∧ expo s l m = (r : EReal) := by
  obtain ⟨a, ha⟩ := hs l m
  obtain ⟨b, hb⟩ := real_rowMax s hs l
  refine ⟨Real.exp (a - b), Real.exp_pos _, ?_⟩
  show Ideal.exp (s l m - rowMax s l) = _
  rw [ha, hb, ← EReal.coe_sub, Ideal.exp_coe]

/-- The softmax denominator of a real row is a nonzero real: a sum of 512 positive reals. -/
theorem real_denom (s : Mat 512 512) (hs : ∀ l m, ∃ r : ℝ, s l m = (r : EReal)) (l : Fin 512) :
    ∃ r : ℝ, r ≠ 0 ∧ denom s l = (r : EReal) := by
  choose g hgpos hg using fun m => real_expo s hs l m
  refine ⟨∑ m : Fin 512, g m, ?_, ?_⟩
  · apply ne_of_gt
    exact Finset.sum_pos (fun m _ => hgpos m) ⟨⟨0, by omega⟩, Finset.mem_univ _⟩
  · show ∑ m : Fin 512, expo s l m = _
    rw [coe_sum]; exact Finset.sum_congr rfl (fun m _ => hg m)

/-- The softmax of real scores is real: a real divided by a nonzero real. -/
theorem real_softmax (s : Mat 512 512) (hs : ∀ l m, ∃ r : ℝ, s l m = (r : EReal)) :
    ∀ l m, ∃ r : ℝ, softmax s l m = (r : EReal) := by
  intro l m
  obtain ⟨e, _, he⟩ := real_expo s hs l m
  obtain ⟨dn, hdn, hd⟩ := real_denom s hs l
  refine ⟨e * (1 / dn), ?_⟩
  show Ideal.div (expo s l m) (denom s l) = _
  rw [he, hd, Ideal.div_coe hdn, ← EReal.coe_mul]

/-- The attention mix of a real input and a real query is real. -/
theorem real_attnMix (x q : Mat 512 512) (hx : ∀ i j, ∃ r : ℝ, x i j = (r : EReal))
    (hq : ∀ i j, ∃ r : ℝ, q i j = (r : EReal)) : ∀ l k, ∃ r : ℝ, attnMix x q l k = (r : EReal) :=
  real_mulM _ _ (real_softmax _ (real_scores q x hq hx)) hx

/-- On the reals, averaging over the first index commutes with a projection. -/
theorem real_pool_one {ι κ : Type} [Fintype ι] [Fintype κ] (m : ι → κ → ℝ) (a : κ → ℝ) (c : ℝ) :
    ∑ k, (∑ l, m l k) * c * a k = (∑ l, ∑ k, m l k * a k) * c := by
  simp only [Finset.sum_mul]
  rw [Finset.sum_comm]
  exact Finset.sum_congr rfl (fun l _ => Finset.sum_congr rfl (fun k _ => by ring))

/-- On the reals, the two mean rows projected and added are the mean of the two projections added. -/
theorem real_pool {ι κ : Type} [Fintype ι] [Fintype κ] (m q : ι → κ → ℝ) (a b : κ → ℝ) (c : ℝ) :
    (∑ k, (∑ l, m l k) * c * a k) + (∑ k, (∑ l, q l k) * c * b k)
      = (∑ l, ((∑ k, m l k * a k) + ∑ k, q l k * b k)) * c := by
  rw [Finset.sum_add_distrib, add_mul, real_pool_one, real_pool_one]

/-- The column mean of a real matrix by a nonzero real divisor is the real column sum times the reciprocal. -/
theorem colMean_coe (y : Fin 512 → Fin 512 → ℝ) (n : ℝ) (hn : n ≠ 0) (k : Fin 512) :
    colMean (fun l k => (y l k : EReal)) (n : EReal) k = (((∑ l, y l k) * (1 / n) : ℝ) : EReal) := by
  show Ideal.div (∑ l, (y l k : EReal)) (n : EReal) = _
  rw [Ideal.div_coe hn, ← coe_sum, ← EReal.coe_mul]

/-- For a real mix, a real query, a real output weight and a nonzero real divisor, projecting the two mean rows and
    adding equals the mean of the joined projection. -/
theorem pool_real (M Q : Mat 512 512) (o : Mat 512 1024) (n : ℝ) (hn : n ≠ 0)
    (hM : ∀ l k, ∃ r : ℝ, M l k = (r : EReal)) (hQ : ∀ l k, ∃ r : ℝ, Q l k = (r : EReal))
    (ho : ∀ d c, ∃ r : ℝ, o d c = (r : EReal)) (d : Fin 512) :
    (∑ k : Fin 512, colMean M (n : EReal) k * loT o k d) + (∑ k : Fin 512, colMean Q (n : EReal) k * hiT o k d)
      = colMean (outCat M Q o) (n : EReal) d := by
  choose Mr hMr using hM
  choose Qr hQr using hQ
  choose ow how using ho
  have hM' : M = fun l k => (Mr l k : EReal) := by funext l k; exact hMr l k
  have hQ' : Q = fun l k => (Qr l k : EReal) := by funext l k; exact hQr l k
  have ho' : o = fun d c => (ow d c : EReal) := by funext d c; exact how d c
  subst hM' hQ' ho'
  rw [← outSplit_eq_outCat]
  have hA : (∑ k : Fin 512, colMean (fun l k => (Mr l k : EReal)) (n : EReal) k * loT (fun d c => (ow d c : EReal)) k d)
      = ((∑ k : Fin 512, (∑ l, Mr l k) * (1 / n) * ow d (lo k) : ℝ) : EReal) := by
    rw [coe_sum]
    refine Finset.sum_congr rfl (fun k _ => ?_)
    rw [colMean_coe _ _ hn, EReal.coe_mul]
    rfl
  have hB : (∑ k : Fin 512, colMean (fun l k => (Qr l k : EReal)) (n : EReal) k * hiT (fun d c => (ow d c : EReal)) k d)
      = ((∑ k : Fin 512, (∑ l, Qr l k) * (1 / n) * ow d (hi k) : ℝ) : EReal) := by
    rw [coe_sum]
    refine Finset.sum_congr rfl (fun k _ => ?_)
    rw [colMean_coe _ _ hn, EReal.coe_mul]
    rfl
  have hC : outSplit (fun l k => (Mr l k : EReal)) (fun l k => (Qr l k : EReal))
        (loT (fun d c => (ow d c : EReal))) (hiT (fun d c => (ow d c : EReal)))
      = fun l d => (((∑ k, Mr l k * ow d (lo k)) + ∑ k, Qr l k * ow d (hi k) : ℝ) : EReal) := by
    funext l e
    show (∑ k : Fin 512, (Mr l k : EReal) * (ow e (lo k) : EReal)) + (∑ k : Fin 512, (Qr l k : EReal) * (ow e (hi k) : EReal)) = _
    rw [EReal.coe_add, coe_sum, coe_sum]
    simp only [EReal.coe_mul]
  rw [hA, hB, hC, colMean_coe _ _ hn, ← EReal.coe_add, real_pool]

/-- The two forms of the fuser agree when the second block's weights are finite and the divisor is a nonzero real:
    the second block's input is `tanh` of something, hence real, so its scores, softmax weights, mix and query are real,
    and on the reals the mean over the sequence commutes with the projection. -/
theorem pooledSplit_eq_pooledCat (x w1 : Mat 512 512) (o1 : Mat 512 1024) (w2 : Mat 512 512) (o2 : Mat 512 1024)
    (hw2 : ∀ e d, ∃ r : ℝ, w2 e d = (r : EReal)) (ho2 : ∀ d c, ∃ r : ℝ, o2 d c = (r : EReal))
    (n : ℝ) (hn : n ≠ 0) :
    pooledSplit x (tr w1) (loT o1) (hiT o1) (tr w2) (loT o2) (hiT o2) (n : EReal) = pooledCat x w1 o1 w2 o2 (n : EReal) := by
  funext d
  unfold pooledSplit pooledCat
  rw [blockSplit_eq_blockCat]
  have hX : ∀ l e, ∃ r : ℝ, th (blockCat x w1 o1) l e = (r : EReal) := fun l e => real_tanh _
  have hW : ∀ i j, ∃ r : ℝ, tr w2 i j = (r : EReal) := fun i j => hw2 j i
  have hQ := real_mulM _ _ hX hW
  have hM := real_attnMix _ _ hX hQ
  exact pool_real _ _ o2 n hn hM hQ ho2 d

end Cert.Spec

end
-- ==== Proof.PreFinite.lean ====
/-
  What the precondition says of the second block's weights.

  The precondition is the conjunction, over the five arguments, of "every entry's absolute value is below +∞". An
  extended real whose absolute value is below +∞ is neither infinity, hence a real. Only the last two conjuncts are
  read here — the second block's query weight and output weight —: these are the arrays whose finiteness the mean's
  passage through the output projection needs.
-/
import proofs.«106665_j65060164600006_2_alg».proof.Pre_finite_inputs
import Idealize.ShloMosaic.PureOps.Ideal
import Idealize.ShloMosaic.PureOps.Ideal.Laws
import Idealize.ShloMosaic.Lib.ReduceAll

noncomputable section

namespace Cert.Pre_finite_inputs.Finite

open Cert.Pre_finite_inputs Idealize.ShloMosaic

instance : Subsingleton S_.Idx := ⟨fun a b => funext fun d => d.elim0⟩

/-- The pattern `0x7F800000` is +∞. -/
theorem ofBits_inf : Ideal.ofBits .f32 0x7F800000#32 = ⊤ := by simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => exfalso; simp [Ideal.cmp] at h
  | coe r => exact ⟨r, rfl⟩
  | top => exfalso; simp [Ideal.cmp] at h

variable [Facts]

/-- Under the precondition every entry of the fourth and of the fifth argument is a real. -/
theorem real_of_pre (a0 : FVec Ideal S256x512x512 .f32) (a1 : FVec Ideal S512x512 .f32) (a2 : FVec Ideal S512x1024 .f32)
    (a3 : FVec Ideal S512x512 .f32) (a4 : FVec Ideal S512x1024 .f32)
    (h : fn (F := Ideal) a0 a1 a2 a3 a4 = fun _ => 1#1) :
    (∀ i, ∃ r : ℝ, a3 i = (r : EReal)) ∧ (∀ i, ∃ r : ℝ, a4 i = (r : EReal)) := by
  have h0 := congrFun h (fun a => a.elim0)
  dsimp only [fn, fn_part1] at h0
  change IntOp.andi (IntOp.andi _ _) _ = 1#1 at h0
  obtain ⟨h1, h4⟩ := IntOp.andi_eq_one.1 h0
  obtain ⟨-, h3⟩ := IntOp.andi_eq_one.1 h1
  refine ⟨fun i => ?_, fun i => ?_⟩
  · exact real_of_abs_lt _ (Host.reduce_andi_all _ _ _ _ _ h3 i)
  · exact real_of_abs_lt _ (Host.reduce_andi_all _ _ _ _ _ h4 i)

end Cert.Pre_finite_inputs.Finite

end
-- ==== Proof.KHost.lean ====
/-
  The arrays the kernel's region is entered with, read at an index.

  Before the region @main transposes each weight, changes its float format, and cuts the two 512 × 1024 output weights
  (transposed to 1024 × 512) into their first and last 512 rows; it changes the format of the input. On the extended
  reals a change of format is the identity, so at an index each of these arrays is an entry of an argument:
  the transposed query weights hold `w[e,d]` at (d,e), the first half of a transposed output weight holds `o[d,k]` at
  (k,d) and the second half `o[d,512+k]`, and the input is the input.
-/
import proofs.«106665_j65060164600006_2_alg».proof.Proof.Gen.KernelIdeal.Frame
import proofs.«106665_j65060164600006_2_alg».proof.Proof.Spec
import Idealize.ShloMosaic.Lib.ValueIdx
import Idealize.ShloMosaic.Lib.Pipeline.Value
import Idealize.ShloMosaic.Lib.StableHlo.Run

noncomputable section

namespace Cert.KernelIdeal.KHost

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The five arguments on core `c`, as arrays of extended reals. -/
abbrev aX (c : Dev nD) : S256x512x512.Idx → EReal := m ((c : Thread nD τ).loc main_arg0)
abbrev aW1 (c : Dev nD) : S512x512.Idx → EReal := m ((c : Thread nD τ).loc main_arg1)
abbrev aO1 (c : Dev nD) : S512x1024.Idx → EReal := m ((c : Thread nD τ).loc main_arg2)
abbrev aW2 (c : Dev nD) : S512x512.Idx → EReal := m ((c : Thread nD τ).loc main_arg3)
abbrev aO2 (c : Dev nD) : S512x1024.Idx → EReal := m ((c : Thread nD τ).loc main_arg4)

/-- The input in the kernel's format is the input. -/
theorem v12_apply (c : Dev nD) (i : S256x512x512.Idx) :
    (V m c main_v12 : S256x512x512.Idx → EReal) i = aX m c i := by
  have h : @Eq (S256x512x512.Idx → EReal) (V m c main_v12)
      (truncf (F := Ideal) (s := S256x512x512) (φ := .f32) .bf16 (aX m c) bitsLt_bf16_f32) := by
    show StableHlo.after hostOps0 (fun b => m (c, b)) (Proc.devRef .tc main_v12) = _
    after_results <;> rfl
  rw [h]; rfl

/-- A transposed 512 × 512 weight at (d, e) is the weight at (e, d). -/
theorem transpose_sq (w : S512x512.Idx → EReal) (d e : Fin 512) :
    transpose S512x512 [1, 0] w transposes_S512x512_S512x512_1_0 (ix2 d e) = w (ix2 e d) :=
  transpose_apply [1, 0] w transposes_S512x512_S512x512_1_0 (ix2 d e) (ix2 e d) (fun b => by
    match b with
    | ⟨0, _⟩ => rfl
    | ⟨1, _⟩ => rfl)

/-- A transposed 512 × 1024 weight at (k, d) is the weight at (d, k). -/
theorem transpose_wide (o : S512x1024.Idx → EReal) (k : Fin 1024) (d : Fin 512) :
    transpose S1024x512 [1, 0] o transposes_S512x1024_S1024x512_1_0 (ix2 k d) = o (ix2 d k) :=
  transpose_apply [1, 0] o transposes_S512x1024_S1024x512_1_0 (ix2 k d) (ix2 d k) (fun b => by
    match b with
    | ⟨0, _⟩ => rfl
    | ⟨1, _⟩ => rfl)

/-- The first block's query weight as the kernel holds it: `w1[e,d]` at (d, e). -/
theorem v1_apply (c : Dev nD) (d e : Fin 512) :
    (V m c main_v1 : S512x512.Idx → EReal) (ix2 d e) = aW1 m c (ix2 e d) := by
  have h : @Eq (S512x512.Idx → EReal) (V m c main_v1)
      (truncf (F := Ideal) (s := S512x512) (φ := .f32) .bf16 (transpose S512x512 [1, 0] (aW1 m c) transposes_S512x512_S512x512_1_0) bitsLt_bf16_f32) := by
    show StableHlo.after hostOps0 (fun b => m (c, b)) (Proc.devRef .tc main_v1) = _
    after_results <;> rfl
  rw [h, truncf_apply]
  exact transpose_sq _ d e

/-- The second block's query weight as the kernel holds it: `w2[e,d]` at (d, e). -/
theorem v7_apply (c : Dev nD) (d e : Fin 512) :
    (V m c main_v7 : S512x512.Idx → EReal) (ix2 d e) = aW2 m c (ix2 e d) := by
  have h : @Eq (S512x512.Idx → EReal) (V m c main_v7)
      (truncf (F := Ideal) (s := S512x512) (φ := .f32) .bf16 (transpose S512x512 [1, 0] (aW2 m c) transposes_S512x512_S512x512_1_0) bitsLt_bf16_f32) := by
    show StableHlo.after hostOps0 (fun b => m (c, b)) (Proc.devRef .tc main_v7) = _
    after_results <;> rfl
  rw [h, truncf_apply]
  exact transpose_sq _ d e

/-- Rows 0 … 511 of a 1024 × 512 array at (k, d). -/
theorem slice_lo (y : S1024x512.Idx → EReal) (k d : Fin 512) :
    extractStridedSlice S512x512 ![0, 0] y slices_S1024x512_S512x512_0_0 (ix2 k d) = y (ix2 (Cert.Spec.lo k) d) :=
  extractStridedSlice_apply ![0, 0] y slices_S1024x512_S512x512_0_0 (ix2 k d) (ix2 (Cert.Spec.lo k) d) (fun a => by
    match a with
    | ⟨0, _⟩ => show k.val = 0 + k.val; omega
    | ⟨1, _⟩ => show d.val = 0 + d.val; omega)

/-- Rows 512 … 1023 of a 1024 × 512 array at (k, d). -/
theorem slice_hi (y : S1024x512.Idx → EReal) (k d : Fin 512) :
    extractStridedSlice S512x512 ![512, 0] y slices_S1024x512_S512x512_512_0 (ix2 k d) = y (ix2 (Cert.Spec.hi k) d) :=
  extractStridedSlice_apply ![512, 0] y slices_S1024x512_S512x512_512_0 (ix2 k d) (ix2 (Cert.Spec.hi k) d) (fun a => by
    match a with
    | ⟨0, _⟩ => show 512 + k.val = 512 + k.val; rfl
    | ⟨1, _⟩ => show d.val = 0 + d.val; omega)

/-- The first half of the first block's output weight as the kernel holds it: `o1[d,k]` at (k, d). -/
theorem v4_apply (c : Dev nD) (k d : Fin 512) :
    (V m c main_v4 : S512x512.Idx → EReal) (ix2 k d) = aO1 m c (ix2 d (Cert.Spec.lo k)) := by
  have h : @Eq (S512x512.Idx → EReal) (V m c main_v4)
      (extractStridedSlice S512x512 ![0, 0] (truncf (F := Ideal) (s := S1024x512) (φ := .f32) .bf16 (transpose S1024x512 [1, 0] (aO1 m c) transposes_S512x1024_S1024x512_1_0) bitsLt_bf16_f32) slices_S1024x512_S512x512_0_0) := by
    show StableHlo.after hostOps0 (fun b => m (c, b)) (Proc.devRef .tc main_v4) = _
    after_results <;> rfl
  rw [h, slice_lo, truncf_apply]
  exact transpose_wide _ _ d

/-- Its second half: `o1[d,512+k]` at (k, d). -/
theorem v5_apply (c : Dev nD) (k d : Fin 512) :
    (V m c main_v5 : S512x512.Idx → EReal) (ix2 k d) = aO1 m c (ix2 d (Cert.Spec.hi k)) := by
  have h : @Eq (S512x512.Idx → EReal) (V m c main_v5)
      (extractStridedSlice S512x512 ![512, 0] (truncf (F := Ideal) (s := S1024x512) (φ := .f32) .bf16 (transpose S1024x512 [1, 0] (aO1 m c) transposes_S512x1024_S1024x512_1_0) bitsLt_bf16_f32) slices_S1024x512_S512x512_512_0) := by
    show StableHlo.after hostOps0 (fun b => m (c, b)) (Proc.devRef .tc main_v5) = _
    after_results <;> rfl
  rw [h, slice_hi, truncf_apply]
  exact transpose_wide _ _ d

/-- The first half of the second block's output weight: `o2[d,k]` at (k, d). -/
theorem v10_apply (c : Dev nD) (k d : Fin 512) :
    (V m c main_v10 : S512x512.Idx → EReal) (ix2 k d) = aO2 m c (ix2 d (Cert.Spec.lo k)) := by
  have h : @Eq (S512x512.Idx → EReal) (V m c main_v10)
      (extractStridedSlice S512x512 ![0, 0] (truncf (F := Ideal) (s := S1024x512) (φ := .f32) .bf16 (transpose S1024x512 [1, 0] (aO2 m c) transposes_S512x1024_S1024x512_1_0) bitsLt_bf16_f32) slices_S1024x512_S512x512_0_0) := by
    show StableHlo.after hostOps0 (fun b => m (c, b)) (Proc.devRef .tc main_v10) = _
    after_results <;> rfl
  rw [h, slice_lo, truncf_apply]
  exact transpose_wide _ _ d

/-- Its second half: `o2[d,512+k]` at (k, d). -/
theorem v11_apply (c : Dev nD) (k d : Fin 512) :
    (V m c main_v11 : S512x512.Idx → EReal) (ix2 k d) = aO2 m c (ix2 d (Cert.Spec.hi k)) := by
  have h : @Eq (S512x512.Idx → EReal) (V m c main_v11)
      (extractStridedSlice S512x512 ![512, 0] (truncf (F := Ideal) (s := S1024x512) (φ := .f32) .bf16 (transpose S1024x512 [1, 0] (aO2 m c) transposes_S512x1024_S1024x512_1_0) bitsLt_bf16_f32) slices_S1024x512_S512x512_512_0) := by
    show StableHlo.after hostOps0 (fun b => m (c, b)) (Proc.devRef .tc main_v11) = _
    after_results <;> rfl
  rw [h, slice_hi, truncf_apply]
  exact transpose_wide _ _ d

end Cert.KernelIdeal.KHost

end
-- ==== Proof.KBlocks.lean ====
/-
  The windows' blocks at a grid point, and the output window's cover.

  The grid has 128 points. At point `t` the input window holds batch rows `2t` and `2t + 1` of the input, each weight
  window holds its whole array at every point, and the output window's block is rows `2t` and `2t + 1` of the
  256 × 1 × 512 result array: the blocks of the 128 points tile it, row `n` lying in the block of point `n / 2`.
-/
import proofs.«106665_j65060164600006_2_alg».proof.Proof.KHost
import Idealize.ShloMosaic.Lib.Pipeline.Value
import Idealize.ShloMosaic.Lib.ValueIdx

noncomputable section

namespace Cert.KernelIdeal.KBlocks

open Cert.KernelIdeal Cert.KernelIdeal.Gen Cert.KernelIdeal.KHost Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The printed index maps of the input and the output window, decided over the grid: block `t` along the batch axis,
    block 0 along the other two. -/
theorem idxIO : ∀ t : Fin cfg0.N, win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0 :=
  (by decide +kernel : ∀ t : Fin grid0.N, win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0)

/-- The weight windows' index maps: block (0, 0) at every point. -/
theorem idxW1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idxW2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idxW3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idxW4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idxW5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idxW6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The input window's block at point `t`, entry (b, l, e), is entry (2t + b, l, e) of the input. -/
theorem iblk0_apply (c : Dev nD) (t : Fin cfg0.N) (b : Fin 2) (l e : Fin 512) (n : Fin 256) (hn : n.val = 2 * t.val + b.val) :
    (iblk m c 0 t : Vec Ideal S2x512x512 .bf16) (ix3 b l e) = aX m c (ix3 n l e) := by
  obtain ⟨e0, e1, e2, -⟩ := idxIO t
  unfold iblk
  rw [View.read_apply]
  refine (congrArg (V m c main_v12 : S256x512x512.Idx → EReal) (funext fun x => Fin.ext ?_)).trans (v12_apply m c (ix3 n l e))
  match x with
  | ⟨0, _⟩ => show win0_0.index t (0 : Fin 3) * 2 + 1 * b.val = n.val; rw [e0, hn]; omega
  | ⟨1, _⟩ => show win0_0.index t (1 : Fin 3) * 512 + 1 * l.val = l.val; rw [e1]; omega
  | ⟨2, _⟩ => show win0_0.index t (2 : Fin 3) * 512 + 1 * e.val = e.val; rw [e2]; omega

/-- Window 1's block at every point is its whole array. -/
theorem iblk1_apply (c : Dev nD) (t : Fin cfg0.N) (a b : Fin 512) :
    (iblk m c 1 t : Vec Ideal S512x512 .bf16) (ix2 a b) = (V m c main_v1 : S512x512.Idx → EReal) (ix2 a b) := by
  obtain ⟨e0, e1⟩ := idxW1 t
  unfold iblk
  rw [View.read_apply]
  refine congrArg (V m c main_v1 : S512x512.Idx → EReal) (funext fun x => Fin.ext ?_)
  match x with
  | ⟨0, _⟩ => show win0_1.index t (0 : Fin 2) * 512 + 1 * a.val = a.val; rw [e0]; omega
  | ⟨1, _⟩ => show win0_1.index t (1 : Fin 2) * 512 + 1 * b.val = b.val; rw [e1]; omega

/-- Window 2's block at every point is its whole array. -/
theorem iblk2_apply (c : Dev nD) (t : Fin cfg0.N) (a b : Fin 512) :
    (iblk m c 2 t : Vec Ideal S512x512 .bf16) (ix2 a b) = (V m c main_v4 : S512x512.Idx → EReal) (ix2 a b) := by
  obtain ⟨e0, e1⟩ := idxW2 t
  unfold iblk
  rw [View.read_apply]
  refine congrArg (V m c main_v4 : S512x512.Idx → EReal) (funext fun x => Fin.ext ?_)
  match x with
  | ⟨0, _⟩ => show win0_2.index t (0 : Fin 2) * 512 + 1 * a.val = a.val; rw [e0]; omega
  | ⟨1, _⟩ => show win0_2.index t (1 : Fin 2) * 512 + 1 * b.val = b.val; rw [e1]; omega

/-- Window 3's block at every point is its whole array. -/
theorem iblk3_apply (c : Dev nD) (t : Fin cfg0.N) (a b : Fin 512) :
    (iblk m c 3 t : Vec Ideal S512x512 .bf16) (ix2 a b) = (V m c main_v5 : S512x512.Idx → EReal) (ix2 a b) := by
  obtain ⟨e0, e1⟩ := idxW3 t
  unfold iblk
  rw [View.read_apply]
  refine congrArg (V m c main_v5 : S512x512.Idx → EReal) (funext fun x => Fin.ext ?_)
  match x with
  | ⟨0, _⟩ => show win0_3.index t (0 : Fin 2) * 512 + 1 * a.val = a.val; rw [e0]; omega
  | ⟨1, _⟩ => show win0_3.index t (1 : Fin 2) * 512 + 1 * b.val = b.val; rw [e1]; omega

/-- Window 4's block at every point is its whole array. -/
theorem iblk4_apply (c : Dev nD) (t : Fin cfg0.N) (a b : Fin 512) :
    (iblk m c 4 t : Vec Ideal S512x512 .bf16) (ix2 a b) = (V m c main_v7 : S512x512.Idx → EReal) (ix2 a b) := by
  obtain ⟨e0, e1⟩ := idxW4 t
  unfold iblk
  rw [View.read_apply]
  refine congrArg (V m c main_v7 : S512x512.Idx → EReal) (funext fun x => Fin.ext ?_)
  match x with
  | ⟨0, _⟩ => show win0_4.index t (0 : Fin 2) * 512 + 1 * a.val = a.val; rw [e0]; omega
  | ⟨1, _⟩ => show win0_4.index t (1 : Fin 2) * 512 + 1 * b.val = b.val; rw [e1]; omega

/-- Window 5's block at every point is its whole array. -/
theorem iblk5_apply (c : Dev nD) (t : Fin cfg0.N) (a b : Fin 512) :
    (iblk m c 5 t : Vec Ideal S512x512 .bf16) (ix2 a b) = (V m c main_v10 : S512x512.Idx → EReal) (ix2 a b) := by
  obtain ⟨e0, e1⟩ := idxW5 t
  unfold iblk
  rw [View.read_apply]
  refine congrArg (V m c main_v10 : S512x512.Idx → EReal) (funext fun x => Fin.ext ?_)
  match x with
  | ⟨0, _⟩ => show win0_5.index t (0 : Fin 2) * 512 + 1 * a.val = a.val; rw [e0]; omega
  | ⟨1, _⟩ => show win0_5.index t (1 : Fin 2) * 512 + 1 * b.val = b.val; rw [e1]; omega

/-- Window 6's block at every point is its whole array. -/
theorem iblk6_apply (c : Dev nD) (t : Fin cfg0.N) (a b : Fin 512) :
    (iblk m c 6 t : Vec Ideal S512x512 .bf16) (ix2 a b) = (V m c main_v11 : S512x512.Idx → EReal) (ix2 a b) := by
  obtain ⟨e0, e1⟩ := idxW6 t
  unfold iblk
  rw [View.read_apply]
  refine congrArg (V m c main_v11 : S512x512.Idx → EReal) (funext fun x => Fin.ext ?_)
  match x with
  | ⟨0, _⟩ => show win0_6.index t (0 : Fin 2) * 512 + 1 * a.val = a.val; rw [e0]; omega
  | ⟨1, _⟩ => show win0_6.index t (1 : Fin 2) * 512 + 1 * b.val = b.val; rw [e1]; omega

/-- An index of the result array is in point `t`'s block iff each coordinate is in the block's range on its axis. -/
theorem mem_blk7 (t : Fin cfg0.N) (i : S256x1x512.Idx) :
    i ∈ ((cfg0.win 7).blk t).view.set ↔ ∀ a : Fin 3, win0_7.index t a * S2x1x512.size a ≤ (i a).val ∧ (i a).val < win0_7.index t a * S2x1x512.size a + S2x1x512.size a := by
  show i ∈ ((View.whole main_v13).slice (win0_7.rect t)).set ↔ _
  rw [View.set_slice_whole, Rect.mem_set_unit]
  exact Iff.rfl

/-- Every index of the result array is in the block of the point its batch row belongs to, and every point writes back. -/
theorem cover7 (i : S256x1x512.Idx) : ∃ t : Fin cfg0.N, (cfg0.win 7).flush t = true ∧ i ∈ ((cfg0.win 7).blk t).view.set := by
  have hN : grid0.N = 128 := N_0
  have hi0 : (i 0).val < 256 := (i 0).isLt
  have hi1 : (i 1).val < 1 := (i 1).isLt
  have hi2 : (i 2).val < 512 := (i 2).isLt
  have ht : (i 0).val / 2 < cfg0.N := by show (i 0).val / 2 < grid0.N; rw [hN]; omega
  refine ⟨⟨(i 0).val / 2, ht⟩, flush0_7 _, ?_⟩
  rw [mem_blk7]
  obtain ⟨-, -, -, e0, e1, e2⟩ := idxIO ⟨(i 0).val / 2, ht⟩
  intro a
  match a with
  | ⟨0, _⟩ =>
    show win0_7.index ⟨(i 0).val / 2, ht⟩ (0 : Fin 3) * 2 ≤ (i 0).val ∧ (i 0).val < win0_7.index ⟨(i 0).val / 2, ht⟩ (0 : Fin 3) * 2 + 2
    rw [e0]; show (i 0).val / 2 * 2 ≤ (i 0).val ∧ (i 0).val < (i 0).val / 2 * 2 + 2; omega
  | ⟨1, _⟩ =>
    show win0_7.index ⟨(i 0).val / 2, ht⟩ (1 : Fin 3) * 1 ≤ (i 1).val ∧ (i 1).val < win0_7.index ⟨(i 0).val / 2, ht⟩ (1 : Fin 3) * 1 + 1
    rw [e1]; omega
  | ⟨2, _⟩ =>
    show win0_7.index ⟨(i 0).val / 2, ht⟩ (2 : Fin 3) * 512 ≤ (i 2).val ∧ (i 2).val < win0_7.index ⟨(i 0).val / 2, ht⟩ (2 : Fin 3) * 512 + 512
    rw [e2]; omega

end Cert.KernelIdeal.KBlocks

end
-- ==== Proof.KValue.lean ====
/-
  The kernel body's stored value, read at an index.

  At a grid point the body loads a block `x` of two batch rows (2 × 512 × 512) and six 512 × 512 weight blocks and
  stores a 2 × 1 × 512 block. Entry (b, 0, d) of what it stores is the split form of the fuser (Proof/Spec.lean
  `pooledSplit`) of batch row `b` of `x` and the six weights: each matrix product of the body is the sum over the
  contracted coordinate, the two rows of the block being folded into and out of a 1024-row matrix around the plain
  products and kept apart by the batched ones; a change of float format is the identity on the extended reals.
-/
import proofs.«106665_j65060164600006_2_alg».proof.Proof.Gen.KernelIdeal.Skeleton
import proofs.«106665_j65060164600006_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-- A 512 × 512 block as a matrix of extended reals. -/
def mat2 (w : Vec Ideal S512x512 .bf16) : Cert.Spec.Mat 512 512 := fun a b => w (ix2 a b)

/-- Batch row `b` of a 2 × 512 × 512 block as a matrix of extended reals. -/
def row3 (x : Vec Ideal S2x512x512 .bf16) (b : Fin 2) : Cert.Spec.Mat 512 512 := fun l e => x (ix3 b l e)

/-! ## Readers and literals -/

/-- Batch row `b` of a 2 × 512 × 512 block of any float format, as a matrix of extended reals. -/
def rd3 {φ : FTy} (y : FVec Ideal S2x512x512 φ) (b : Fin 2) : Cert.Spec.Mat 512 512 := fun l e => y (ix3 b l e)

/-- The float word for −∞ denotes −∞. -/
theorem ofBits_negInf : Ideal.ofBits .f32 0xFF800000#32 = ⊥ := by simp [Ideal.ofBits, Ideal.ieee]

/-! ## The stages of the body, over variables -/

/-- The projection of both batch rows at once: the block viewed as a 1024 × 512 matrix, times the weight, viewed back. -/
def kProj (x : FVec Ideal S2x512x512 .bf16) (w : Vec Ideal S512x512 .bf16) : FVec Ideal S2x512x512 .f32 :=
  shapeCast S2x512x512
    (matmul dot_S1024x512_S512x512_S1024x512_1_0_0_1_n_n none
      (shapeCast S1024x512 x shapeCasts_S2x512x512_S1024x512 : FVec Ideal S1024x512 .bf16)
      (shapeCast S512x512 w shapeCasts_S512x512_S512x512 : FVec Ideal S512x512 .bf16)
      (constant S1024x512 .f32 0x00000000#32 : FVec Ideal S1024x512 .f32) : FVec Ideal S1024x512 .f32)
    shapeCasts_S1024x512_S2x512x512

/-- The query: the projection, its format changed. -/
def kQ (x : FVec Ideal S2x512x512 .bf16) (w : Vec Ideal S512x512 .bf16) : FVec Ideal S2x512x512 .bf16 :=
  truncf .bf16 (kProj x w) bitsLt_bf16_f32

/-- The scores: per batch row, the query contracted with the input over the feature. -/
def kScores (q x : FVec Ideal S2x512x512 .bf16) : FVec Ideal S2x512x512 .f32 :=
  matmul dot_S2x512x512_S2x512x512_S2x512x512_2_2_1_1_0_0 none q x
    (constant S2x512x512 .f32 0x00000000#32 : FVec Ideal S2x512x512 .f32)

/-- The row maximum, spread back over the row. -/
def kRowMaxB (s : FVec Ideal S2x512x512 .f32) : FVec Ideal S2x512x512 .f32 :=
  broadcastTo S2x512x512
    (shapeCast S2x512x1
      (multiReduction .maximumf [2] S2x512 s 0xFF800000#32 reduces_S2x512x512_S2x512 (.inl rfl) rfl : FVec Ideal S2x512 .f32)
      shapeCasts_S2x512_S2x512x1 : FVec Ideal S2x512x1 .f32)
    broadcasts_S2x512x1_S2x512x512

/-- The exponential of the scores less their row maximum. -/
def kExp (s : FVec Ideal S2x512x512 .f32) : FVec Ideal S2x512x512 .f32 := exp (subf s (kRowMaxB s))

/-- The row sum, spread back over the row. -/
def kRowSumB (e : FVec Ideal S2x512x512 .f32) : FVec Ideal S2x512x512 .f32 :=
  broadcastTo S2x512x512
    (shapeCast S2x512x1
      (multiReduction .add [2] S2x512 e 0x00000000#32 reduces_S2x512x512_S2x512 (.inl rfl) rfl : FVec Ideal S2x512 .f32)
      shapeCasts_S2x512_S2x512x1 : FVec Ideal S2x512x1 .f32)
    broadcasts_S2x512x1_S2x512x512

/-- The softmax over the last axis. -/
def kSoftmax (s : FVec Ideal S2x512x512 .f32) : FVec Ideal S2x512x512 .f32 := divf (kExp s) (kRowSumB (kExp s))

/-- Per batch row, the product of a 512 × 512 weight matrix with the input. -/
def kMix (p x : FVec Ideal S2x512x512 .bf16) : FVec Ideal S2x512x512 .f32 :=
  matmul dot_S2x512x512_S2x512x512_S2x512x512_2_1_1_2_0_0 none p x
    (constant S2x512x512 .f32 0x00000000#32 : FVec Ideal S2x512x512 .f32)

/-- The attention mix of an input and its query. -/
def kAttn (x q : FVec Ideal S2x512x512 .bf16) : FVec Ideal S2x512x512 .f32 :=
  kMix (truncf .bf16 (kSoftmax (kScores q x)) bitsLt_bf16_f32) x

/-- The first attention block followed by `tanh`. -/
def kBlock1 (x : FVec Ideal S2x512x512 .bf16) (w1 w2 w3 : Vec Ideal S512x512 .bf16) : FVec Ideal S2x512x512 .bf16 :=
  truncf .bf16
    (tanh (addf (kProj (truncf .bf16 (kAttn x (kQ x w1)) bitsLt_bf16_f32) w2) (kProj (kQ x w1) w3)))
    bitsLt_bf16_f32

/-- The mean over the sequence: the column sums, divided by the literal 512. -/
def kColMean (y : FVec Ideal S2x512x512 .f32) : FVec Ideal S2x1x512 .f32 :=
  divf
    (shapeCast S2x1x512
      (multiReduction .add [1] S2x512 y 0x00000000#32 reduces_S2x512x512_S2x512_2 (.inl rfl) rfl : FVec Ideal S2x512 .f32)
      shapeCasts_S2x512_S2x1x512 : FVec Ideal S2x1x512 .f32)
    (broadcast S2x1x512 (Scalar.ofBits .f32 0x44000000#32 : Ideal .f32) : FVec Ideal S2x1x512 .f32)

/-- The projection of the two mean rows. -/
def kRowProj (v : FVec Ideal S2x1x512 .bf16) (w : Vec Ideal S512x512 .bf16) : FVec Ideal S2x1x512 .f32 :=
  shapeCast S2x1x512
    (matmul dot_S2x512_S512x512_S2x512_1_0_0_1_n_n none
      (shapeCast S2x512 v shapeCasts_S2x1x512_S2x512 : FVec Ideal S2x512 .bf16)
      (shapeCast S512x512 w shapeCasts_S512x512_S512x512 : FVec Ideal S512x512 .bf16)
      (constant S2x512 .f32 0x00000000#32 : FVec Ideal S2x512 .f32) : FVec Ideal S2x512 .f32)
    shapeCasts_S2x512_S2x1x512

/-- What the body stores, from the second block's input, its query in both formats, and the two output weights. -/
def kOut (x1 : FVec Ideal S2x512x512 .bf16) (q2f : FVec Ideal S2x512x512 .f32) (q2 : FVec Ideal S2x512x512 .bf16)
    (w5 w6 : Vec Ideal S512x512 .bf16) : FVec Ideal S2x1x512 .f32 :=
  addf (kRowProj (truncf .bf16 (kColMean (kAttn x1 q2)) bitsLt_bf16_f32) w5)
    (kRowProj (truncf .bf16 (kColMean q2f) bitsLt_bf16_f32) w6)

/-! ## The body's values are these stages composed -/

theorem pay2_eq (x0 : Vec Ideal S2x512x512 .bf16) (w1 w2 w3 : Vec Ideal S512x512 .bf16) :
    k0_pay2 (F := Ideal) x0 w1 w2 w3
      = kBlock1 (shapeCast S2x512x512 x0 shapeCasts_S2x512x512_S2x512x512 : FVec Ideal S2x512x512 .bf16) w1 w2 w3 := rfl

theorem pay3_eq (x0 : Vec Ideal S2x512x512 .bf16) (w1 w2 w3 w4 : Vec Ideal S512x512 .bf16) :
    k0_pay3 (F := Ideal) x0 w1 w2 w3 w4 = kProj (k0_pay2 x0 w1 w2 w3) w4 := rfl

theorem pay4_eq (x0 : Vec Ideal S2x512x512 .bf16) (w1 w2 w3 w4 : Vec Ideal S512x512 .bf16) :
    k0_pay4 (F := Ideal) x0 w1 w2 w3 w4 = truncf .bf16 (k0_pay3 x0 w1 w2 w3 w4) bitsLt_bf16_f32 := rfl

theorem pay1_eq (v33 : FVec Ideal S2x512x512 .bf16) (v38 : FVec Ideal S2x512x512 .f32) (v39 : FVec Ideal S2x512x512 .bf16)
    (v62 v67 : Vec Ideal S512x512 .bf16) :
    k0_pay1 (F := Ideal) v33 v38 v39 v62 v67 = kOut v33 v38 v39 v62 v67 := rfl

/-! ## Each stage read at an index -/

/-- The projection at (b, l, e) is the sum over the feature of the input row times the weight column. -/
theorem proj_apply (x : FVec Ideal S2x512x512 .bf16) (w : Vec Ideal S512x512 .bf16) (b : Fin 2) (l e : Fin 512) :
    kProj x w (ix3 b l e) = ∑ d : Fin 512, x (ix3 b l d) * w (ix2 d e) := by
  unfold kProj
  have hr : 512 * b.val + l.val < 1024 := by omega
  refine (shapeCast_apply _ shapeCasts_S1024x512_S2x512x512 (ix3 b l e) (ix2 ⟨512 * b.val + l.val, hr⟩ e) ?_).trans ?_
  · rw [Shape.rowMajor_val_two, Shape.rowMajor_val_three]
    show (512 * b.val + l.val) * 512 + e.val = (b.val * 512 + l.val) * 512 + e.val
    omega
  · refine (Ideal.matmul_constant_zero_apply dot_S1024x512_S512x512_S1024x512_1_0_0_1_n_n none _ _ _).trans ?_
    rw [← Equiv.sum_comp (contrEquiv1 dot_S1024x512_S512x512_S1024x512_1_0_0_1_n_n 512 rfl rfl).symm]
    refine Finset.sum_congr rfl fun k _ => ?_
    have hk := contrEquiv1_symm_val dot_S1024x512_S512x512_S1024x512_1_0_0_1_n_n 512 rfl rfl k
    have el : dot_S1024x512_S512x512_S1024x512_1_0_0_1_n_n.lhsIdx (ix2 ⟨512 * b.val + l.val, hr⟩ e)
        ((contrEquiv1 dot_S1024x512_S512x512_S1024x512_1_0_0_1_n_n 512 rfl rfl).symm k) = ix2 ⟨512 * b.val + l.val, hr⟩ k :=
      funext fun a => Fin.ext (by
        match a with
        | ⟨0, _⟩ => rfl
        | ⟨1, _⟩ => exact (dot_S1024x512_S512x512_S1024x512_1_0_0_1_n_n.lhsIdx_val_of_single rfl _ _).trans hk)
    have er : dot_S1024x512_S512x512_S1024x512_1_0_0_1_n_n.rhsIdx (ix2 ⟨512 * b.val + l.val, hr⟩ e)
        ((contrEquiv1 dot_S1024x512_S512x512_S1024x512_1_0_0_1_n_n 512 rfl rfl).symm k) = ix2 k e :=
      funext fun a => Fin.ext (by
        match a with
        | ⟨0, _⟩ => exact (dot_S1024x512_S512x512_S1024x512_1_0_0_1_n_n.rhsIdx_val_of_single rfl _ _).trans hk
        | ⟨1, _⟩ => rfl)
    rw [el, er, shapeCast_self]
    rw [shapeCast_apply x shapeCasts_S2x512x512_S1024x512 (ix2 ⟨512 * b.val + l.val, hr⟩ k) (ix3 b l k) (by
      rw [Shape.rowMajor_val_two, Shape.rowMajor_val_three]
      show (b.val * 512 + l.val) * 512 + k.val = (512 * b.val + l.val) * 512 + k.val
      omega)]

/-- The scores at (b, l, m) are the sum over the feature of the query row l times the input row m. -/
theorem scores_apply (q x : FVec Ideal S2x512x512 .bf16) (b : Fin 2) (l m : Fin 512) :
    kScores q x (ix3 b l m) = ∑ d : Fin 512, q (ix3 b l d) * x (ix3 b m d) := by
  unfold kScores
  refine (Ideal.matmul_constant_zero_apply dot_S2x512x512_S2x512x512_S2x512x512_2_2_1_1_0_0 none _ _ _).trans ?_
  rw [← Equiv.sum_comp (contrEquiv1 dot_S2x512x512_S2x512x512_S2x512x512_2_2_1_1_0_0 512 rfl rfl).symm]
  refine Finset.sum_congr rfl fun k _ => ?_
  have hk := contrEquiv1_symm_val dot_S2x512x512_S2x512x512_S2x512x512_2_2_1_1_0_0 512 rfl rfl k
  have el : dot_S2x512x512_S2x512x512_S2x512x512_2_2_1_1_0_0.lhsIdx (ix3 b l m)
      ((contrEquiv1 dot_S2x512x512_S2x512x512_S2x512x512_2_2_1_1_0_0 512 rfl rfl).symm k) = ix3 b l k :=
    funext fun a => Fin.ext (by
      match a with
      | ⟨0, _⟩ => rfl
      | ⟨1, _⟩ => rfl
      | ⟨2, _⟩ => exact (dot_S2x512x512_S2x512x512_S2x512x512_2_2_1_1_0_0.lhsIdx_val_of_single rfl _ _).trans hk)
  have er : dot_S2x512x512_S2x512x512_S2x512x512_2_2_1_1_0_0.rhsIdx (ix3 b l m)
      ((contrEquiv1 dot_S2x512x512_S2x512x512_S2x512x512_2_2_1_1_0_0 512 rfl rfl).symm k) = ix3 b m k :=
    funext fun a => Fin.ext (by
      match a with
      | ⟨0, _⟩ => rfl
      | ⟨1, _⟩ => rfl
      | ⟨2, _⟩ => exact (dot_S2x512x512_S2x512x512_S2x512x512_2_2_1_1_0_0.rhsIdx_val_of_single rfl _ _).trans hk)
  rw [el, er]

/-- The batched product at (b, l, k) is the sum over m of the weight (b, l, m) times the input (b, m, k). -/
theorem mix_apply (p x : FVec Ideal S2x512x512 .bf16) (b : Fin 2) (l k : Fin 512) :
    kMix p x (ix3 b l k) = ∑ m : Fin 512, p (ix3 b l m) * x (ix3 b m k) := by
  unfold kMix
  refine (Ideal.matmul_constant_zero_apply dot_S2x512x512_S2x512x512_S2x512x512_2_1_1_2_0_0 none _ _ _).trans ?_
  rw [← Equiv.sum_comp (contrEquiv1 dot_S2x512x512_S2x512x512_S2x512x512_2_1_1_2_0_0 512 rfl rfl).symm]
  refine Finset.sum_congr rfl fun m _ => ?_
  have hm := contrEquiv1_symm_val dot_S2x512x512_S2x512x512_S2x512x512_2_1_1_2_0_0 512 rfl rfl m
  have el : dot_S2x512x512_S2x512x512_S2x512x512_2_1_1_2_0_0.lhsIdx (ix3 b l k)
      ((contrEquiv1 dot_S2x512x512_S2x512x512_S2x512x512_2_1_1_2_0_0 512 rfl rfl).symm m) = ix3 b l m :=
    funext fun a => Fin.ext (by
      match a with
      | ⟨0, _⟩ => rfl
      | ⟨1, _⟩ => rfl
      | ⟨2, _⟩ => exact (dot_S2x512x512_S2x512x512_S2x512x512_2_1_1_2_0_0.lhsIdx_val_of_single rfl _ _).trans hm)
  have er : dot_S2x512x512_S2x512x512_S2x512x512_2_1_1_2_0_0.rhsIdx (ix3 b l k)
      ((contrEquiv1 dot_S2x512x512_S2x512x512_S2x512x512_2_1_1_2_0_0 512 rfl rfl).symm m) = ix3 b m k :=
    funext fun a => Fin.ext (by
      match a with
      | ⟨0, _⟩ => rfl
      | ⟨1, _⟩ => exact (dot_S2x512x512_S2x512x512_S2x512x512_2_1_1_2_0_0.rhsIdx_val_of_single rfl _ _).trans hm
      | ⟨2, _⟩ => rfl)
  rw [el, er]

/-- The spread row maximum at (b, l, m) is the maximum of row l of batch row b, taken from −∞. -/
theorem rowMaxB_apply (s : FVec Ideal S2x512x512 .f32) (b : Fin 2) (l m : Fin 512) :
    kRowMaxB s (ix3 b l m) = Cert.Spec.rowMax (rd3 s b) l := by
  unfold kRowMaxB
  refine (broadcastTo_apply _ broadcasts_S2x512x1_S2x512x512 (ix3 b l m) (ix3 b l (0 : Fin 1)) ?_).trans ?_
  · intro a
    match a with
    | ⟨0, _⟩ => rfl
    | ⟨1, _⟩ => rfl
    | ⟨2, _⟩ => rfl
  refine (shapeCast_apply _ shapeCasts_S2x512_S2x512x1 (ix3 b l (0 : Fin 1)) (ix2 b l) ?_).trans ?_
  · rw [Shape.rowMajor_val_two, Shape.rowMajor_val_three]
    show b.val * 512 + l.val = (b.val * 512 + l.val) * 1 + 0
    omega
  refine (Ideal.multiReduction_maximumf_single s _ reduces_S2x512x512_S2x512 (.inl rfl) rfl (ix2 b l)).trans ?_
  show (Finset.univ : Finset (Fin 512)).fold max (Ideal.ofBits .f32 0xFF800000#32)
      (fun m' => s (reduces_S2x512x512_S2x512.lift (ix2 b l) m')) = (Finset.univ : Finset (Fin 512)).fold max ⊥ (fun m' => s (ix3 b l m'))
  rw [ofBits_negInf]
  refine congrArg (fun f => (Finset.univ : Finset (Fin 512)).fold max ⊥ f) (funext fun m' => congrArg s (funext fun c => Fin.ext ?_))
  match c with
  | ⟨0, _⟩ => rfl
  | ⟨1, _⟩ => rfl
  | ⟨2, _⟩ => rfl

/-- The exponential stage at (b, l, m). -/
theorem exp_apply (s : FVec Ideal S2x512x512 .f32) (b : Fin 2) (l m : Fin 512) :
    kExp s (ix3 b l m) = Cert.Spec.expo (rd3 s b) l m := by
  show Ideal.exp (s (ix3 b l m) - kRowMaxB s (ix3 b l m)) = Ideal.exp (rd3 s b l m - Cert.Spec.rowMax (rd3 s b) l)
  rw [rowMaxB_apply]
  rfl

/-- The spread row sum at (b, l, m) is the sum of row l of batch row b. -/
theorem rowSumB_apply (e : FVec Ideal S2x512x512 .f32) (b : Fin 2) (l m : Fin 512) :
    kRowSumB e (ix3 b l m) = ∑ m' : Fin 512, e (ix3 b l m') := by
  unfold kRowSumB
  refine (broadcastTo_apply _ broadcasts_S2x512x1_S2x512x512 (ix3 b l m) (ix3 b l (0 : Fin 1)) ?_).trans ?_
  · intro a
    match a with
    | ⟨0, _⟩ => rfl
    | ⟨1, _⟩ => rfl
    | ⟨2, _⟩ => rfl
  refine (shapeCast_apply _ shapeCasts_S2x512_S2x512x1 (ix3 b l (0 : Fin 1)) (ix2 b l) ?_).trans ?_
  · rw [Shape.rowMajor_val_two, Shape.rowMajor_val_three]
    show b.val * 512 + l.val = (b.val * 512 + l.val) * 1 + 0
    omega
  refine (Ideal.multiReduction_add_single e _ reduces_S2x512x512_S2x512 (.inl rfl) rfl (ix2 b l)).trans ?_
  show ∑ m' : Fin 512, e (reduces_S2x512x512_S2x512.lift (ix2 b l) m') = ∑ m' : Fin 512, e (ix3 b l m')
  refine Finset.sum_congr rfl fun m' _ => congrArg e (funext fun c => Fin.ext ?_)
  match c with
  | ⟨0, _⟩ => rfl
  | ⟨1, _⟩ => rfl
  | ⟨2, _⟩ => rfl

/-! ## Each stage, one batch row at a time -/

theorem trunc_row (y : FVec Ideal S2x512x512 .f32) (b : Fin 2) :
    rd3 (truncf .bf16 y bitsLt_bf16_f32 : FVec Ideal S2x512x512 .bf16) b = rd3 y b := rfl

theorem proj_row (x : FVec Ideal S2x512x512 .bf16) (w : Vec Ideal S512x512 .bf16) (b : Fin 2) :
    rd3 (kProj x w) b = Cert.Spec.mul (rd3 x b) (mat2 w) := by
  funext l e
  exact proj_apply x w b l e

theorem scores_row (q x : FVec Ideal S2x512x512 .bf16) (b : Fin 2) :
    rd3 (kScores q x) b = Cert.Spec.scores (rd3 q b) (rd3 x b) := by
  funext l m
  exact scores_apply q x b l m

theorem mix_row (p x : FVec Ideal S2x512x512 .bf16) (b : Fin 2) :
    rd3 (kMix p x) b = Cert.Spec.mul (rd3 p b) (rd3 x b) := by
  funext l k
  exact mix_apply p x b l k

theorem softmax_row (s : FVec Ideal S2x512x512 .f32) (b : Fin 2) :
    rd3 (kSoftmax s) b = Cert.Spec.softmax (rd3 s b) := by
  funext l m
  show Ideal.div (kExp s (ix3 b l m)) (kRowSumB (kExp s) (ix3 b l m))
    = Ideal.div (Cert.Spec.expo (rd3 s b) l m) (∑ m' : Fin 512, Cert.Spec.expo (rd3 s b) l m')
  rw [rowSumB_apply, exp_apply]
  exact congrArg (Ideal.div _) (Finset.sum_congr rfl fun m' _ => exp_apply s b l m')

theorem attn_row (x q : FVec Ideal S2x512x512 .bf16) (b : Fin 2) :
    rd3 (kAttn x q) b = Cert.Spec.attnMix (rd3 x b) (rd3 q b) := by
  unfold kAttn
  rw [mix_row, trunc_row, softmax_row, scores_row]
  rfl

theorem block1_row (x : FVec Ideal S2x512x512 .bf16) (w1 w2 w3 : Vec Ideal S512x512 .bf16) (b : Fin 2) :
    rd3 (kBlock1 x w1 w2 w3) b
      = Cert.Spec.th (Cert.Spec.blockSplit (rd3 x b) (mat2 w1) (mat2 w2) (mat2 w3)) := by
  funext l d
  show Ideal.tanh (rd3 (kProj (truncf .bf16 (kAttn x (kQ x w1)) bitsLt_bf16_f32) w2) b l d + rd3 (kProj (kQ x w1) w3) b l d) = _
  have hq : rd3 (kQ x w1) b = Cert.Spec.mul (rd3 x b) (mat2 w1) := proj_row x w1 b
  rw [proj_row, proj_row, trunc_row, attn_row, hq]
  rfl

/-! ## The second block's pooling and output projection -/

/-- The column mean at (b, 0, d): the sum over the sequence of column d of batch row b, divided by 512. -/
theorem colMean_apply (y : FVec Ideal S2x512x512 .f32) (b : Fin 2) (d : Fin 512) :
    kColMean y (ix3 b (0 : Fin 1) d) = Cert.Spec.colMean (rd3 y b) (Ideal.ofBits .f32 0x44000000#32) d := by
  show _ = Ideal.div (∑ l : Fin 512, rd3 y b l d) (Ideal.ofBits .f32 0x44000000#32)
  unfold kColMean
  refine (divf_apply _ _ _).trans ?_
  refine congr (congrArg Ideal.div ?_) rfl
  refine (shapeCast_apply _ shapeCasts_S2x512_S2x1x512 (ix3 b (0 : Fin 1) d) (ix2 b d) ?_).trans ?_
  · rw [Shape.rowMajor_val_two, Shape.rowMajor_val_three]
    show b.val * 512 + d.val = (b.val * 1 + 0) * 512 + d.val
    omega
  refine (Ideal.multiReduction_add_single y _ reduces_S2x512x512_S2x512_2 (.inl rfl) rfl (ix2 b d)).trans ?_
  show ∑ l : Fin 512, y (reduces_S2x512x512_S2x512_2.lift (ix2 b d) l) = ∑ l : Fin 512, y (ix3 b l d)
  refine Finset.sum_congr rfl fun l _ => congrArg y (funext fun c => Fin.ext ?_)
  match c with
  | ⟨0, _⟩ => rfl
  | ⟨1, _⟩ => rfl
  | ⟨2, _⟩ => rfl

/-- The projection of the mean rows at (b, 0, d): the sum over k of the mean row's entry k times the weight (k, d). -/
theorem rowProj_apply (v : FVec Ideal S2x1x512 .bf16) (w : Vec Ideal S512x512 .bf16) (b : Fin 2) (d : Fin 512) :
    kRowProj v w (ix3 b (0 : Fin 1) d) = ∑ k : Fin 512, v (ix3 b (0 : Fin 1) k) * w (ix2 k d) := by
  unfold kRowProj
  refine (shapeCast_apply _ shapeCasts_S2x512_S2x1x512 (ix3 b (0 : Fin 1) d) (ix2 b d) ?_).trans ?_
  · rw [Shape.rowMajor_val_two, Shape.rowMajor_val_three]
    show b.val * 512 + d.val = (b.val * 1 + 0) * 512 + d.val
    omega
  refine (Ideal.matmul_constant_zero_apply dot_S2x512_S512x512_S2x512_1_0_0_1_n_n none _ _ _).trans ?_
  rw [← Equiv.sum_comp (contrEquiv1 dot_S2x512_S512x512_S2x512_1_0_0_1_n_n 512 rfl rfl).symm]
  refine Finset.sum_congr rfl fun k _ => ?_
  have hk := contrEquiv1_symm_val dot_S2x512_S512x512_S2x512_1_0_0_1_n_n 512 rfl rfl k
  have el : dot_S2x512_S512x512_S2x512_1_0_0_1_n_n.lhsIdx (ix2 b d)
      ((contrEquiv1 dot_S2x512_S512x512_S2x512_1_0_0_1_n_n 512 rfl rfl).symm k) = ix2 b k :=
    funext fun a => Fin.ext (by
      match a with
      | ⟨0, _⟩ => rfl
      | ⟨1, _⟩ => exact (dot_S2x512_S512x512_S2x512_1_0_0_1_n_n.lhsIdx_val_of_single rfl _ _).trans hk)
  have er : dot_S2x512_S512x512_S2x512_1_0_0_1_n_n.rhsIdx (ix2 b d)
      ((contrEquiv1 dot_S2x512_S512x512_S2x512_1_0_0_1_n_n 512 rfl rfl).symm k) = ix2 k d :=
    funext fun a => Fin.ext (by
      match a with
      | ⟨0, _⟩ => exact (dot_S2x512_S512x512_S2x512_1_0_0_1_n_n.rhsIdx_val_of_single rfl _ _).trans hk
      | ⟨1, _⟩ => rfl)
  rw [el, er, shapeCast_self]
  rw [shapeCast_apply v shapeCasts_S2x1x512_S2x512 (ix2 b k) (ix3 b (0 : Fin 1) k) (by
    rw [Shape.rowMajor_val_two, Shape.rowMajor_val_three]
    show (b.val * 1 + 0) * 512 + k.val = b.val * 512 + k.val
    omega)]

/-- What the body stores at (b, 0, d): the two mean rows of batch row b projected and added. -/
theorem out_apply (x1 : FVec Ideal S2x512x512 .bf16) (q2f : FVec Ideal S2x512x512 .f32) (q2 : FVec Ideal S2x512x512 .bf16)
    (w5 w6 : Vec Ideal S512x512 .bf16) (b : Fin 2) (d : Fin 512) :
    kOut x1 q2f q2 w5 w6 (ix3 b (0 : Fin 1) d)
      = (∑ k : Fin 512, Cert.Spec.colMean (Cert.Spec.attnMix (rd3 x1 b) (rd3 q2 b)) (Ideal.ofBits .f32 0x44000000#32) k * mat2 w5 k d)
        + ∑ k : Fin 512, Cert.Spec.colMean (rd3 q2f b) (Ideal.ofBits .f32 0x44000000#32) k * mat2 w6 k d := by
  show kRowProj (truncf .bf16 (kColMean (kAttn x1 q2)) bitsLt_bf16_f32) w5 (ix3 b (0 : Fin 1) d)
      + kRowProj (truncf .bf16 (kColMean q2f) bitsLt_bf16_f32) w6 (ix3 b (0 : Fin 1) d) = _
  rw [rowProj_apply, rowProj_apply]
  refine congr (congrArg HAdd.hAdd ?_) ?_
  · refine Finset.sum_congr rfl fun k _ => ?_
    show kColMean (kAttn x1 q2) (ix3 b (0 : Fin 1) k) * w5 (ix2 k d) = _
    rw [colMean_apply, attn_row]
    rfl
  · refine Finset.sum_congr rfl fun k _ => ?_
    show kColMean q2f (ix3 b (0 : Fin 1) k) * w6 (ix2 k d) = _
    rw [colMean_apply]
    rfl

/-- Entry (b, 0, d) of the value the body stores is the split form of the fuser of batch row `b`. The weights are, in the
    order the body loads them: the first block's query projection, its two output halves, the second block's query
    projection, its two output halves; 512 is the literal the body divides the column sums by. -/
theorem pay1_read (x0 : Vec Ideal S2x512x512 .bf16) (w1 w2 w3 w4 w5 w6 : Vec Ideal S512x512 .bf16) (b : Fin 2) (d : Fin 512) :
    k0_pay1 (F := Ideal) (k0_pay2 x0 w1 w2 w3) (k0_pay3 x0 w1 w2 w3 w4) (k0_pay4 x0 w1 w2 w3 w4) w5 w6 (ix3 b 0 d)
      = Cert.Spec.pooledSplit (row3 x0 b) (mat2 w1) (mat2 w2) (mat2 w3) (mat2 w4) (mat2 w5) (mat2 w6)
          (Ideal.ofBits .f32 0x44000000#32) d := by
  have hX : k0_pay2 (F := Ideal) x0 w1 w2 w3 = kBlock1 x0 w1 w2 w3 := by
    rw [pay2_eq, shapeCast_self]
  rw [pay1_eq, pay4_eq, pay3_eq, hX]
  refine (out_apply _ _ _ w5 w6 b d).trans ?_
  rw [trunc_row, proj_row, block1_row]
  rfl

end Cert.KernelIdeal.KValue

end
-- ==== Proof.KRun.lean ====
/-
  The kernel's run, read: what @main leaves in its result.

  Row `n` of the 256 × 1 × 512 array the region writes is the split form of the fuser (Proof/Spec.lean `pooledSplit`) of
  batch row `n` of the input, with the weights as the kernel holds them — the query weights transposed, each output weight
  transposed and cut in two. Point `t` of the grid writes back rows `2t` and `2t + 1`: what it stores is the body's value
  (Proof/KValue.lean) of the point's blocks, and the blocks are rows `2t`, `2t + 1` of the input and the whole weights
  (Proof/KBlocks.lean, Proof/KHost.lean). The 128 blocks tile the array, so after the region the array IS that function;
  the one host operation after the region reshapes it to 256 × 512 × 1 × 1, entry (n, d, 0, 0) from entry (n, 0, d).
-/
import proofs.«106665_j65060164600006_2_alg».proof.Proof.KBlocks
import proofs.«106665_j65060164600006_2_alg».proof.Proof.KValue
import Idealize.ShloMosaic.Lib.Pipeline.Value
import Idealize.ShloMosaic.Lib.ValueIdx
import Idealize.ShloMosaic.Lib.StableHlo.Run

noncomputable section

namespace Cert.KernelIdeal.KRun

open Cert.KernelIdeal Cert.KernelIdeal.Gen Cert.KernelIdeal.KHost Cert.KernelIdeal.KBlocks Cert.KernelIdeal.KValue
open Idealize.ShloMosaic Idealize.ShloMosaic.TcCoe Idealize.SL.Sem Idealize.ShloMosaic.ValueIdx Idealize.ShloMosaic.StableHlo
open Idealize.ShloMosaic.Pipeline (Dat)

/-- A 512 × 512 weight, a 512 × 1024 weight and batch row `n` of the input as matrices of extended reals. -/
def matW (w : S512x512.Idx → EReal) : Cert.Spec.Mat 512 512 := fun a b => w (ix2 a b)
def matO (o : S512x1024.Idx → EReal) : Cert.Spec.Mat 512 1024 := fun a b => o (ix2 a b)
def rowX (x : S256x512x512.Idx → EReal) (n : Fin 256) : Cert.Spec.Mat 512 512 := fun l e => x (ix3 n l e)

/-- The split form of the fuser of batch row `n`, at feature `d`, from the five arguments. -/
def pooled (x : S256x512x512.Idx → EReal) (w1 : S512x512.Idx → EReal) (o1 : S512x1024.Idx → EReal)
    (w2 : S512x512.Idx → EReal) (o2 : S512x1024.Idx → EReal) (n : Fin 256) (d : Fin 512) : EReal :=
  Cert.Spec.pooledSplit (rowX x n) (Cert.Spec.tr (matW w1)) (Cert.Spec.loT (matO o1)) (Cert.Spec.hiT (matO o1))
    (Cert.Spec.tr (matW w2)) (Cert.Spec.loT (matO o2)) (Cert.Spec.hiT (matO o2)) (Ideal.ofBits .f32 0x44000000#32) d

/-- What the region leaves in its 256 × 1 × 512 result array. -/
def regionResult (x : S256x512x512.Idx → EReal) (w1 : S512x512.Idx → EReal) (o1 : S512x1024.Idx → EReal)
    (w2 : S512x512.Idx → EReal) (o2 : S512x1024.Idx → EReal) : S256x1x512.Idx → EReal :=
  fun i => pooled x w1 o1 w2 o2 ⟨(i 0).val, (i 0).isLt⟩ ⟨(i 2).val, (i 2).isLt⟩

/-- What @main returns: the same numbers at (n, d, 0, 0). -/
def result (x : S256x512x512.Idx → EReal) (w1 : S512x512.Idx → EReal) (o1 : S512x1024.Idx → EReal)
    (w2 : S512x512.Idx → EReal) (o2 : S512x1024.Idx → EReal) : S256x512x1x1.Idx → EReal :=
  fun i => pooled x w1 o1 w2 o2 ⟨(i 0).val, (i 0).isLt⟩ ⟨(i 1).val, (i 1).isLt⟩

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The blocks as matrices -/

theorem row3_iblk0 (c : Dev nD) (t : Fin cfg0.N) (b : Fin 2) (n : Fin 256) (hn : n.val = 2 * t.val + b.val) :
    row3 (iblk m c 0 t : Vec Ideal S2x512x512 .bf16) b = rowX (aX m c) n :=
  funext fun l => funext fun e => iblk0_apply m c t b l e n hn
theorem mat2_iblk1 (c : Dev nD) (t : Fin cfg0.N) : mat2 (iblk m c 1 t : Vec Ideal S512x512 .bf16) = Cert.Spec.tr (matW (aW1 m c)) :=
  funext fun a => funext fun b => (iblk1_apply m c t a b).trans (v1_apply m c a b)
theorem mat2_iblk2 (c : Dev nD) (t : Fin cfg0.N) : mat2 (iblk m c 2 t : Vec Ideal S512x512 .bf16) = Cert.Spec.loT (matO (aO1 m c)) :=
  funext fun a => funext fun b => (iblk2_apply m c t a b).trans (v4_apply m c a b)
theorem mat2_iblk3 (c : Dev nD) (t : Fin cfg0.N) : mat2 (iblk m c 3 t : Vec Ideal S512x512 .bf16) = Cert.Spec.hiT (matO (aO1 m c)) :=
  funext fun a => funext fun b => (iblk3_apply m c t a b).trans (v5_apply m c a b)
theorem mat2_iblk4 (c : Dev nD) (t : Fin cfg0.N) : mat2 (iblk m c 4 t : Vec Ideal S512x512 .bf16) = Cert.Spec.tr (matW (aW2 m c)) :=
  funext fun a => funext fun b => (iblk4_apply m c t a b).trans (v7_apply m c a b)
theorem mat2_iblk5 (c : Dev nD) (t : Fin cfg0.N) : mat2 (iblk m c 5 t : Vec Ideal S512x512 .bf16) = Cert.Spec.loT (matO (aO2 m c)) :=
  funext fun a => funext fun b => (iblk5_apply m c t a b).trans (v10_apply m c a b)
theorem mat2_iblk6 (c : Dev nD) (t : Fin cfg0.N) : mat2 (iblk m c 6 t : Vec Ideal S512x512 .bf16) = Cert.Spec.hiT (matO (aO2 m c)) :=
  funext fun a => funext fun b => (iblk6_apply m c t a b).trans (v11_apply m c a b)

/-! ## The body's value at an index of its block -/

/-- Entry `y` of what the body stores, for any index `y` of the 2 × 1 × 512 block: its middle coordinate is 0. -/
theorem pay_at (x0 : Vec Ideal S2x512x512 .bf16) (w1 w2 w3 w4 w5 w6 : Vec Ideal S512x512 .bf16) (y : S2x1x512.Idx) :
    k0_pay1 (F := Ideal) (k0_pay2 x0 w1 w2 w3) (k0_pay3 x0 w1 w2 w3 w4) (k0_pay4 x0 w1 w2 w3 w4) w5 w6 y
      = Cert.Spec.pooledSplit (row3 x0 ⟨(y 0).val, (y 0).isLt⟩) (mat2 w1) (mat2 w2) (mat2 w3) (mat2 w4) (mat2 w5) (mat2 w6)
          (Ideal.ofBits .f32 0x44000000#32) ⟨(y 2).val, (y 2).isLt⟩ := by
  have hy : y = ix3 (⟨(y 0).val, (y 0).isLt⟩ : Fin 2) (0 : Fin 1) (⟨(y 2).val, (y 2).isLt⟩ : Fin 512) := by
    funext a; apply Fin.ext
    match a with
    | ⟨0, _⟩ => rfl
    | ⟨1, _⟩ => show (y 1).val = 0; have h1 : (y 1).val < 1 := (y 1).isLt; omega
    | ⟨2, _⟩ => rfl
  exact (congrArg (k0_pay1 (F := Ideal) (k0_pay2 x0 w1 w2 w3) (k0_pay3 x0 w1 w2 w3 w4) (k0_pay4 x0 w1 w2 w3 w4) w5 w6) hy).trans
    (pay1_read x0 w1 w2 w3 w4 w5 w6 _ _)

/-! ## What point `t` writes back, the array after the region, and @main's result -/

/-- What point `t` writes back is block `t` of `regionResult` of the arguments. -/
theorem flushed_eq (c : Dev nD) (t : Fin cfg0.N) :
    (dats m 0 c).flushed 7 t = ((cfg0.win 7).blk t).view.read (Elt Ideal) (regionResult (aX m c) (aW1 m c) (aO1 m c) (aW2 m c) (aO2 m c)) := by
  show (cfg0.win 7).cut (grid0.coords t) ((dats m 0 c).after 7 t) = _
  rw [after0_7]
  unfold out0_7
  rw [View.canon_unit_zero hz3]
  simp only [View.ld_unit_zero (S := S2x512x512) hz3, View.ld_unit_zero (S := S512x512) hz2]
  obtain ⟨-, -, -, e0, e1, e2⟩ := idxIO t
  funext j
  have hN : grid0.N = 128 := N_0
  have ht : t.val < 128 := by have := t.isLt; show t.val < 128; rw [← hN]; exact this
  have hj0 : (j 0).val < 2 := (j 0).isLt
  have hj2 : (j 2).val < 512 := (j 2).isLt
  have hn : ((((cfg0.win 7).blk t).view.emb j) 0).val = 2 * t.val + (j 0).val := by
    show win0_7.index t (0 : Fin 3) * 2 + 1 * (j 0).val = _; rw [e0]; omega
  have hd : ((((cfg0.win 7).blk t).view.emb j) 2).val = (j 2).val := by
    show win0_7.index t (2 : Fin 3) * 512 + 1 * (j 2).val = _; rw [e2]; omega
  refine (pay_at _ _ _ _ _ _ _ j).trans ?_
  rw [row3_iblk0 m c t ⟨(j 0).val, hj0⟩ ⟨2 * t.val + (j 0).val, by omega⟩ rfl, mat2_iblk1, mat2_iblk2, mat2_iblk3, mat2_iblk4,
    mat2_iblk5, mat2_iblk6]
  show _ = pooled (aX m c) (aW1 m c) (aO1 m c) (aW2 m c) (aO2 m c) _ _
  unfold pooled
  congr 1
  · exact congrArg (rowX (aX m c)) (Fin.ext hn.symm)
  · exact Fin.ext hd.symm

/-- The blocks tile the array: after the region it is `regionResult` of the arguments. -/
theorem final (c : Dev nD) : (dats m 0 c).arrAt 7 cfg0.N = regionResult (aX m c) (aW1 m c) (aO1 m c) (aW2 m c) (aO2 m c) :=
  (dats m 0 c).arrAt_eq_of_cover 7 (regionResult (aX m c) (aW1 m c) (aO1 m c) (aW2 m c) (aO2 m c)) (fun t _ => flushed_eq m c t) cover7

/-- The host's reshape after the region: @main's result buffer holds `result` of the arguments. -/
theorem tail_eq (c : Dev nD) :
    Pipeline.afterTail₀ cfgs (dats m) 0 (V0 m) [hostOps1] c main_v14 = result (aX m c) (aW1 m c) (aO1 m c) (aW2 m c) (aO2 m c) := by
  unfold Pipeline.afterTail₀
  show StableHlo.after hostOps1 _ (Proc.devRef .tc main_v14) = _
  after_results
  funext i
  have hw : Pipeline.withArrays (cfgs 0).spec c (V0 m c) (fun w => (dats m 0 c).arrAt w (cfgs 0).N) (Proc.devRef .tc main_v13)
      = regionResult (aX m c) (aW1 m c) (aO1 m c) (aW2 m c) (aO2 m c) :=
    (Pipeline.withArrays_arr spec0 launch0.win.arr_inj c _ _ 7).trans (final m c)
  show shapeCast S256x512x1x1 (Pipeline.withArrays (cfgs 0).spec c (V0 m c) (fun w => (dats m 0 c).arrAt w (cfgs 0).N)
      (Proc.devRef .tc main_v13)) shapeCasts_S256x1x512_S256x512x1x1 i = _
  rw [hw]
  have h2 : (i 2).val < 1 := (i 2).isLt
  have h3 : (i 3).val < 1 := (i 3).isLt
  refine (shapeCast_apply _ shapeCasts_S256x1x512_S256x512x1x1 i
    (ix3 (⟨(i 0).val, (i 0).isLt⟩ : Fin 256) (0 : Fin 1) (⟨(i 1).val, (i 1).isLt⟩ : Fin 512)) ?_).trans rfl
  rw [Shape.rowMajor_val_three, Shape.rowMajor_val_four]
  show ((i 0).val * 1 + 0) * 512 + (i 1).val = (((i 0).val * 512 + (i 1).val) * 1 + (i 2).val) * 1 + (i 3).val
  omega

/-- The kernel's run: every weakly fair execution of @main terminates with the result buffer at `result` of the launched
    arguments, and the arguments unchanged. -/
theorem run : θ_run defs (onTc (τ := τ) (main (F := Ideal))) ⟨m, fun _ => 0, ρ⟩ fun r => ∀ c : Dev nD,
      r.2.mem ((c.tc : Thread nD τ).loc main_v14) = result (aX m c) (aW1 m c) (aO1 m c) (aW2 m c) (aO2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KRun

end
-- ==== Proof.RefDefs.lean ====
/-
  The reference program's arithmetic, stage by stage, as functions of whole arrays.

  The reference applies to the 256 × 512 × 512 input the same attention block twice — query projection, scores, softmax
  over the last axis (the row maximum subtracted first), mix, and the output projection of the joined [mix, q] rows —
  with `tanh` between the two, and ends with the mean over the sequence axis, reshaped to 256 × 512 × 1 × 1. Each stage
  is named here as the host operations it is made of, so that one block is ONE function `block` used twice and the whole
  result is `result`.
-/
import proofs.«106665_j65060164600006_2_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- A 256 × 512 × 512 array, a 512 × 512 weight, a 512 × 1024 weight, a 256 × 512 array. -/
abbrev A3 (F : FTy → Type) := (⟨S256x512x512, .f32⟩ : BufTy).Contents (Elt F)
abbrev W2 (F : FTy → Type) := (⟨S512x512, .f32⟩ : BufTy).Contents (Elt F)
abbrev O2 (F : FTy → Type) := (⟨S512x1024, .f32⟩ : BufTy).Contents (Elt F)
abbrev A2 (F : FTy → Type) := (⟨S256x512, .f32⟩ : BufTy).Contents (Elt F)

/-- The query projection `q[n,l,e] = Σ_d x[n,l,d] · w[e,d]`. -/
def query (x : A3 F) (w : W2 F) : A3 F :=
  Host.dotGeneral dot_S256x512x512_S512x512_S256x512x512_2_1_01_0_n_n none x w

/-- The scores `s[n,l,m] = Σ_d q[n,l,d] · x[n,m,d]`. -/
def scores (q x : A3 F) : A3 F :=
  Host.dotGeneral dot_S256x512x512_S256x512x512_S256x512x512_2_2_1_1_0_0 none q x

/-- The maximum over the last axis, from −∞ (and once more against −∞, as the program does). -/
def rowMax (s : A3 F) : A2 F :=
  maximumf (broadcastInDim S256x512 ![] bcast_S_S256x512 (constant S_ .f32 0xFF800000#32))
    (Host.reduce FloatOps.maximumf s (constant S_ .f32 0xFF800000#32) reducesTo_S256x512x512_S256x512_d2 h_S_)

/-- A 256 × 512 array repeated along a new last axis of length 512. -/
def spread (v : A2 F) : A3 F :=
  broadcastInDim S256x512x512 ![0, 1, 2] bcast_S256x512x1_S256x512x512_0_1_2
    (broadcastInDim S256x512x1 ![0, 1] bcast_S256x512_S256x512x1_0_1 v)

/-- `exp (s − max)`. -/
def expo (s : A3 F) : A3 F := Host.exp (subf s (spread (rowMax s)))

/-- The sum over the last axis, from zero. -/
def rowSum (e : A3 F) : A2 F :=
  Host.reduceAdd e (constant S_ .f32 0x00000000#32) reducesTo_S256x512x512_S256x512_d2 h_S_

/-- The softmax over the last axis. -/
def softmax (s : A3 F) : A3 F := Host.divf (expo s) (spread (rowSum (expo s)))

/-- The mix `Σ_m p[n,l,m] · x[n,m,d]`. -/
def mix (p x : A3 F) : A3 F :=
  Host.dotGeneral dot_S256x512x512_S256x512x512_S256x512x512_2_1_1_2_0_0 none p x

/-- The output projection of the joined rows `[mix, q]`: `Σ_c [mix, q][n,l,c] · o[d,c]`. -/
def out (mx q : A3 F) (o : O2 F) : A3 F :=
  Host.dotGeneral dot_S256x512x1024_S512x1024_S256x512x512_2_1_01_0_n_n none
    (concatenate S256x512x1024 2 [⟨S256x512x512, mx⟩, ⟨S256x512x512, q⟩] concatenates_S256x512x512_S256x512x512_S256x512x1024_d2) o

/-- The mix of one attention block on input `x` with query weight `w`. -/
def blockMix (x : A3 F) (w : W2 F) : A3 F := mix (softmax (scores (query x w) x)) x

/-- One attention block (before any `tanh`). -/
def block (x : A3 F) (w : W2 F) (o : O2 F) : A3 F := out (blockMix x w) (query x w) o

/-- The mean over the sequence axis of the joined rows' projection, reshaped to 256 × 512 × 1 × 1. -/
def pool (mx q : A3 F) (o : O2 F) : (⟨S256x512x1x1, .f32⟩ : BufTy).Contents (Elt F) :=
  shapeCast S256x512x1x1
    (Host.divf (Host.reduceAdd (out mx q o) (constant S_ .f32 0x00000000#32) reducesTo_S256x512x512_S256x512_d1 h_S_)
      (broadcastInDim S256x512 ![] bcast_S_S256x512 (constant S_ .f32 0x44000000#32)))
    shapeCasts_S256x512_S256x512x1x1

/-- The reference's result as a function of its five arguments. -/
def result (x : A3 F) (w1 : W2 F) (o1 : O2 F) (w2 : W2 F) (o2 : O2 F) : (⟨S256x512x1x1, .f32⟩ : BufTy).Contents (Elt F) :=
  pool (blockMix (Host.tanh (block x w1 o1)) w2) (query (Host.tanh (block x w1 o1)) w2) o2

end Cert.ReferenceIdeal.RefValue

end
-- ==== Proof.RefRun.lean ====
/-
  The reference program runs, and what it leaves in its result buffer.

  @main of the reference is a straight line of 45 host operations. It is cut here into three pieces, each ending just
  before a `concatenate` reads its two operands: the first attention block up to its mix, the joined rows of the first
  block through the second block's mix, and the joined rows of the second block to the reshaped mean. What a piece
  leaves in the buffers the next piece reads is computed once, from ANY contents `W` the piece starts from, as the
  stage functions of Proof/RefDefs.lean applied to `W` at the buffers the piece reads; the contents after the whole
  line are the pieces' results composed, which is `RefValue.result` of the five arguments. No operation writes an
  argument, so the arguments end as launched.
-/
import proofs.«106665_j65060164600006_2_alg».proof.Proof.RefOps
import proofs.«106665_j65060164600006_2_alg».proof.Proof.RefDefs

noncomputable section

namespace Cert.ReferenceIdeal.RefRun

open Cert.ReferenceIdeal Cert.ReferenceIdeal.Gen Cert.ReferenceIdeal.ValueP Cert.ReferenceIdeal.RefValue
open Idealize.ShloMosaic Idealize.ShloMosaic.TcCoe Idealize.SL.Sem Idealize.ShloMosaic.StableHlo

variable {F : FTy → Type} [FloatOps F]

/-- The contents after two lines run one after the other are the second line's from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The first attention block up to its mix: operations 1–17 of @main. -/
abbrev opsA : List (HloOp τ sig (Elt F)) :=
  [ binary main_arg0 main_arg1 main_v0 ((fun l r => Host.dotGeneral dot_S256x512x512_S512x512_S256x512x512_2_1_01_0_n_n none l r) : (⟨S256x512x512, .f32⟩ : BufTy).Contents (Elt F) → (⟨S512x512, .f32⟩ : BufTy).Contents (Elt F) → (⟨S256x512x512, .f32⟩ : BufTy).Contents (Elt F)),
    binary main_v0 main_arg0 main_v1 ((fun l r => Host.dotGeneral dot_S256x512x512_S256x512x512_S256x512x512_2_2_1_1_0_0 none l r) : (⟨S256x512x512, .f32⟩ : BufTy).Contents (Elt F) → (⟨S256x512x512, .f32⟩ : BufTy).Contents (Elt F) → (⟨S256x512x512, .f32⟩ : BufTy).Contents (Elt F)),
    nullary main_cst (constant S_ .f32 0xFF800000#32),
    binary main_v1 main_cst main_v2 ((fun x v => Host.reduce FloatOps.maximumf x v reducesTo_S256x512x512_S256x512_d2 h_S_) : (⟨S256x512x512, .f32⟩ : BufTy).Contents (Elt F) → (⟨S_, .f32⟩ : BufTy).Contents (Elt F) → (⟨S256x512, .f32⟩ : BufTy).Contents (Elt F)),
    nullary main_cst_0 (constant S_ .f32 0xFF800000#32),
    unary main_cst_0 main_v3 (broadcastInDim S256x512 ![] bcast_S_S256x512 : (⟨S_, .f32⟩ : BufTy).Contents (Elt F) → (⟨S256x512, .f32⟩ : BufTy).Contents (Elt F)),
    binary main_v3 main_v2 main_v4 (maximumf : (⟨S256x512, .f32⟩ : BufTy).Contents (Elt F) → (⟨S256x512, .f32⟩ : BufTy).Contents (Elt F) → (⟨S256x512, .f32⟩ : BufTy).Contents (Elt F)),
    unary main_v4 main_v5 (broadcastInDim S256x512x1 ![0, 1] bcast_S256x512_S256x512x1_0_1 : (⟨S256x512, .f32⟩ : BufTy).Contents (Elt F) → (⟨S256x512x1, .f32⟩ : BufTy).Contents (Elt F)),
    unary main_v5 main_v6 (broadcastInDim S256x512x512 ![0, 1, 2] bcast_S256x512x1_S256x512x512_0_1_2 : (⟨S256x512x1, .f32⟩ : BufTy).Contents (Elt F) → (⟨S256x512x512, .f32⟩ : BufTy).Contents (Elt F)),
    binary main_v1 main_v6 main_v7 (subf : (⟨S256x512x512, .f32⟩ : BufTy).Contents (Elt F) → (⟨S256x512x512, .f32⟩ : BufTy).Contents (Elt F) → (⟨S256x512x512, .f32⟩ : BufTy).Contents (Elt F)),
    unary main_v7 main_v8 (Host.exp : (⟨S256x512x512, .f32⟩ : BufTy).Contents (Elt F) → (⟨S256x512x512, .f32⟩ : BufTy).Contents (Elt F)),
    nullary main_cst_1 (constant S_ .f32 0x00000000#32),
    binary main_v8 main_cst_1 main_v9 ((fun x v => Host.reduceAdd x v reducesTo_S256x512x512_S256x512_d2 h_S_) : (⟨S256x512x512, .f32⟩ : BufTy).Contents (Elt F) → (⟨S_, .f32⟩ : BufTy).Contents (Elt F) → (⟨S256x512, .f32⟩ : BufTy).Contents (Elt F)),
    unary main_v9 main_v10 (broadcastInDim S256x512x1 ![0, 1] bcast_S256x512_S256x512x1_0_1 : (⟨S256x512, .f32⟩ : BufTy).Contents (Elt F) → (⟨S256x512x1, .f32⟩ : BufTy).Contents (Elt F)),
    unary main_v10 main_v11 (broadcastInDim S256x512x512 ![0, 1, 2] bcast_S256x512x1_S256x512x512_0_1_2 : (⟨S256x512x1, .f32⟩ : BufTy).Contents (Elt F) → (⟨S256x512x512, .f32⟩ : BufTy).Contents (Elt F)),
    binary main_v8 main_v11 main_v12 (Host.divf : (⟨S256x512x512, .f32⟩ : BufTy).Contents (Elt F) → (⟨S256x512x512, .f32⟩ : BufTy).Contents (Elt F) → (⟨S256x512x512, .f32⟩ : BufTy).Contents (Elt F)),
    binary main_v12 main_arg0 main_v13 ((fun l r => Host.dotGeneral dot_S256x512x512_S256x512x512_S256x512x512_2_1_1_2_0_0 none l r) : (⟨S256x512x512, .f32⟩ : BufTy).Contents (Elt F) → (⟨S256x512x512, .f32⟩ : BufTy).Contents (Elt F) → (⟨S256x512x512, .f32⟩ : BufTy).Contents (Elt F)) ]

/-- The first block's joined rows, its output projection and `tanh`, and the second block up to its mix: operations 18–37. -/
abbrev opsB : List (HloOp τ sig (Elt F)) :=
  [ binary main_v13 main_v0 main_v14 ((fun a b => concatenate S256x512x1024 2 [⟨S256x512x512, a⟩, ⟨S256x512x512, b⟩] concatenates_S256x512x512_S256x512x512_S256x512x1024_d2) : (⟨S256x512x512, .f32⟩ : BufTy).Contents (Elt F) → (⟨S256x512x512, .f32⟩ : BufTy).Contents (Elt F) → (⟨S256x512x1024, .f32⟩ : BufTy).Contents (Elt F)),
    binary main_v14 main_arg2 main_v15 ((fun l r => Host.dotGeneral dot_S256x512x1024_S512x1024_S256x512x512_2_1_01_0_n_n none l r) : (⟨S256x512x1024, .f32⟩ : BufTy).Contents (Elt F) → (⟨S512x1024, .f32⟩ : BufTy).Contents (Elt F) → (⟨S256x512x512, .f32⟩ : BufTy).Contents (Elt F)),
    unary main_v15 main_v16 (Host.tanh : (⟨S256x512x512, .f32⟩ : BufTy).Contents (Elt F) → (⟨S256x512x512, .f32⟩ : BufTy).Contents (Elt F)),
    binary main_v16 main_arg3 main_v17 ((fun l r => Host.dotGeneral dot_S256x512x512_S512x512_S256x512x512_2_1_01_0_n_n none l r) : (⟨S256x512x512, .f32⟩ : BufTy).Contents (Elt F) → (⟨S512x512, .f32⟩ : BufTy).Contents (Elt F) → (⟨S256x512x512, .f32⟩ : BufTy).Contents (Elt F)),
    binary main_v17 main_v16 main_v18 ((fun l r => Host.dotGeneral dot_S256x512x512_S256x512x512_S256x512x512_2_2_1_1_0_0 none l r) : (⟨S256x512x512, .f32⟩ : BufTy).Contents (Elt F) → (⟨S256x512x512, .f32⟩ : BufTy).Contents (Elt F) → (⟨S256x512x512, .f32⟩ : BufTy).Contents (Elt F)),
    nullary main_cst_2 (constant S_ .f32 0xFF800000#32),
    binary main_v18 main_cst_2 main_v19 ((fun x v => Host.reduce FloatOps.maximumf x v reducesTo_S256x512x512_S256x512_d2 h_S_) : (⟨S256x512x512, .f32⟩ : BufTy).Contents (Elt F) → (⟨S_, .f32⟩ : BufTy).Contents (Elt F) → (⟨S256x512, .f32⟩ : BufTy).Contents (Elt F)),
    nullary main_cst_3 (constant S_ .f32 0xFF800000#32),
    unary main_cst_3 main_v20 (broadcastInDim S256x512 ![] bcast_S_S256x512 : (⟨S_, .f32⟩ : BufTy).Contents (Elt F) → (⟨S256x512, .f32⟩ : BufTy).Contents (Elt F)),
    binary main_v20 main_v19 main_v21 (maximumf : (⟨S256x512, .f32⟩ : BufTy).Contents (Elt F) → (⟨S256x512, .f32⟩ : BufTy).Contents (Elt F) → (⟨S256x512, .f32⟩ : BufTy).Contents (Elt F)),
    unary main_v21 main_v22 (broadcastInDim S256x512x1 ![0, 1] bcast_S256x512_S256x512x1_0_1 : (⟨S256x512, .f32⟩ : BufTy).Contents (Elt F) → (⟨S256x512x1, .f32⟩ : BufTy).Contents (Elt F)),
    unary main_v22 main_v23 (broadcastInDim S256x512x512 ![0, 1, 2] bcast_S256x512x1_S256x512x512_0_1_2 : (⟨S256x512x1, .f32⟩ : BufTy).Contents (Elt F) → (⟨S256x512x512, .f32⟩ : BufTy).Contents (Elt F)),
    binary main_v18 main_v23 main_v24 (subf : (⟨S256x512x512, .f32⟩ : BufTy).Contents (Elt F) → (⟨S256x512x512, .f32⟩ : BufTy).Contents (Elt F) → (⟨S256x512x512, .f32⟩ : BufTy).Contents (Elt F)),
    unary main_v24 main_v25 (Host.exp : (⟨S256x512x512, .f32⟩ : BufTy).Contents (Elt F) → (⟨S256x512x512, .f32⟩ : BufTy).Contents (Elt F)),
    nullary main_cst_4 (constant S_ .f32 0x00000000#32),
    binary main_v25 main_cst_4 main_v26 ((fun x v => Host.reduceAdd x v reducesTo_S256x512x512_S256x512_d2 h_S_) : (⟨S256x512x512, .f32⟩ : BufTy).Contents (Elt F) → (⟨S_, .f32⟩ : BufTy).Contents (Elt F) → (⟨S256x512, .f32⟩ : BufTy).Contents (Elt F)),
    unary main_v26 main_v27 (broadcastInDim S256x512x1 ![0, 1] bcast_S256x512_S256x512x1_0_1 : (⟨S256x512, .f32⟩ : BufTy).Contents (Elt F) → (⟨S256x512x1, .f32⟩ : BufTy).Contents (Elt F)),
    unary main_v27 main_v28 (broadcastInDim S256x512x512 ![0, 1, 2] bcast_S256x512x1_S256x512x512_0_1_2 : (⟨S256x512x1, .f32⟩ : BufTy).Contents (Elt F) → (⟨S256x512x512, .f32⟩ : BufTy).Contents (Elt F)),
    binary main_v25 main_v28 main_v29 (Host.divf : (⟨S256x512x512, .f32⟩ : BufTy).Contents (Elt F) → (⟨S256x512x512, .f32⟩ : BufTy).Contents (Elt F) → (⟨S256x512x512, .f32⟩ : BufTy).Contents (Elt F)),
    binary main_v29 main_v16 main_v30 ((fun l r => Host.dotGeneral dot_S256x512x512_S256x512x512_S256x512x512_2_1_1_2_0_0 none l r) : (⟨S256x512x512, .f32⟩ : BufTy).Contents (Elt F) → (⟨S256x512x512, .f32⟩ : BufTy).Contents (Elt F) → (⟨S256x512x512, .f32⟩ : BufTy).Contents (Elt F)) ]

/-- The second block's joined rows, its output projection, the mean over the sequence and the reshape: operations 38–45. -/
abbrev opsC : List (HloOp τ sig (Elt F)) :=
  [ binary main_v30 main_v17 main_v31 ((fun a b => concatenate S256x512x1024 2 [⟨S256x512x512, a⟩, ⟨S256x512x512, b⟩] concatenates_S256x512x512_S256x512x512_S256x512x1024_d2) : (⟨S256x512x512, .f32⟩ : BufTy).Contents (Elt F) → (⟨S256x512x512, .f32⟩ : BufTy).Contents (Elt F) → (⟨S256x512x1024, .f32⟩ : BufTy).Contents (Elt F)),
    binary main_v31 main_arg4 main_v32 ((fun l r => Host.dotGeneral dot_S256x512x1024_S512x1024_S256x512x512_2_1_01_0_n_n none l r) : (⟨S256x512x1024, .f32⟩ : BufTy).Contents (Elt F) → (⟨S512x1024, .f32⟩ : BufTy).Contents (Elt F) → (⟨S256x512x512, .f32⟩ : BufTy).Contents (Elt F)),
    nullary main_cst_5 (constant S_ .f32 0x00000000#32),
    binary main_v32 main_cst_5 main_v33 ((fun x v => Host.reduceAdd x v reducesTo_S256x512x512_S256x512_d1 h_S_) : (⟨S256x512x512, .f32⟩ : BufTy).Contents (Elt F) → (⟨S_, .f32⟩ : BufTy).Contents (Elt F) → (⟨S256x512, .f32⟩ : BufTy).Contents (Elt F)),
    nullary main_cst_6 (constant S_ .f32 0x44000000#32),
    unary main_cst_6 main_v34 (broadcastInDim S256x512 ![] bcast_S_S256x512 : (⟨S_, .f32⟩ : BufTy).Contents (Elt F) → (⟨S256x512, .f32⟩ : BufTy).Contents (Elt F)),
    binary main_v33 main_v34 main_v35 (Host.divf : (⟨S256x512, .f32⟩ : BufTy).Contents (Elt F) → (⟨S256x512, .f32⟩ : BufTy).Contents (Elt F) → (⟨S256x512, .f32⟩ : BufTy).Contents (Elt F)),
    reshape main_v35 main_v36 rfl shapeCasts_S256x512_S256x512x1x1 ]

set_option maxRecDepth 8192 in
/-- @main's operations are the three pieces in order. -/
theorem ops_split : (ops : List (HloOp τ sig (Elt F))) = opsA ++ (opsB ++ opsC) := rfl

variable (W : Valuation τ sig (Elt F))

/-! ## What each piece leaves, from any contents -/

set_option maxRecDepth 8192 in
/-- The first piece leaves the first block's mix in `main_v13`. -/
theorem A_mix : after opsA W (Proc.devRef .tc main_v13)
    = blockMix (W (Proc.devRef .tc main_arg0)) (W (Proc.devRef .tc main_arg1)) := by
  after_results_simp <;> rfl

set_option maxRecDepth 8192 in
/-- … and its query in `main_v0`. -/
theorem A_query : after opsA W (Proc.devRef .tc main_v0)
    = query (W (Proc.devRef .tc main_arg0)) (W (Proc.devRef .tc main_arg1)) := by
  after_results_simp <;> rfl

/-- It writes none of the weights the later pieces read. -/
theorem A_keep2 : after opsA W (Proc.devRef .tc main_arg2) = W (Proc.devRef .tc main_arg2) :=
  StableHlo.after_of_forall_not_mem _ _ (List.forall_iff_forall_mem.mp (by
    simp only [opsA, List.Forall, StableHlo.nullary_writes, StableHlo.unary_writes, StableHlo.binary_writes, StableHlo.reshape_writes, Finset.mem_singleton]
    repeat' apply And.intro
    all_goals exact StableHlo.devRef_ne_of_ne (by decide)))
theorem A_keep3 : after opsA W (Proc.devRef .tc main_arg3) = W (Proc.devRef .tc main_arg3) :=
  StableHlo.after_of_forall_not_mem _ _ (List.forall_iff_forall_mem.mp (by
    simp only [opsA, List.Forall, StableHlo.nullary_writes, StableHlo.unary_writes, StableHlo.binary_writes, StableHlo.reshape_writes, Finset.mem_singleton]
    repeat' apply And.intro
    all_goals exact StableHlo.devRef_ne_of_ne (by decide)))
theorem A_keep4 : after opsA W (Proc.devRef .tc main_arg4) = W (Proc.devRef .tc main_arg4) :=
  StableHlo.after_of_forall_not_mem _ _ (List.forall_iff_forall_mem.mp (by
    simp only [opsA, List.Forall, StableHlo.nullary_writes, StableHlo.unary_writes, StableHlo.binary_writes, StableHlo.reshape_writes, Finset.mem_singleton]
    repeat' apply And.intro
    all_goals exact StableHlo.devRef_ne_of_ne (by decide)))

set_option maxRecDepth 8192 in
/-- The second piece leaves the second block's mix in `main_v30`: the block's input is `tanh` of the first block's output. -/
theorem B_mix : after opsB W (Proc.devRef .tc main_v30)
    = blockMix (Host.tanh (out (W (Proc.devRef .tc main_v13)) (W (Proc.devRef .tc main_v0)) (W (Proc.devRef .tc main_arg2))))
        (W (Proc.devRef .tc main_arg3)) := by
  after_results_simp <;> rfl

set_option maxRecDepth 8192 in
/-- … and its query in `main_v17`. -/
theorem B_query : after opsB W (Proc.devRef .tc main_v17)
    = query (Host.tanh (out (W (Proc.devRef .tc main_v13)) (W (Proc.devRef .tc main_v0)) (W (Proc.devRef .tc main_arg2))))
        (W (Proc.devRef .tc main_arg3)) := by
  after_results_simp <;> rfl

theorem B_keep4 : after opsB W (Proc.devRef .tc main_arg4) = W (Proc.devRef .tc main_arg4) :=
  StableHlo.after_of_forall_not_mem _ _ (List.forall_iff_forall_mem.mp (by
    simp only [opsB, List.Forall, StableHlo.nullary_writes, StableHlo.unary_writes, StableHlo.binary_writes, StableHlo.reshape_writes, Finset.mem_singleton]
    repeat' apply And.intro
    all_goals exact StableHlo.devRef_ne_of_ne (by decide)))

set_option maxRecDepth 8192 in
/-- The third piece leaves the reshaped mean of the second block's output in the result buffer. -/
theorem C_result : after opsC W (Proc.devRef .tc main_v36)
    = pool (W (Proc.devRef .tc main_v30)) (W (Proc.devRef .tc main_v17)) (W (Proc.devRef .tc main_arg4)) := by
  after_results_simp <;> rfl

/-! ## The whole line -/

/-- After the whole line the result buffer holds `result` of the five arguments as the line found them. -/
theorem after_result : after ops W (Proc.devRef .tc main_v36)
    = result (W (Proc.devRef .tc main_arg0)) (W (Proc.devRef .tc main_arg1)) (W (Proc.devRef .tc main_arg2))
        (W (Proc.devRef .tc main_arg3)) (W (Proc.devRef .tc main_arg4)) := by
  rw [ops_split, after_append, after_append, C_result, B_mix, B_query, B_keep4, A_mix, A_query, A_keep2, A_keep3, A_keep4]
  rfl

/-- No operation of the line writes an argument. -/
theorem after_arg0 : after ops W (Proc.devRef .tc main_arg0) = W (Proc.devRef .tc main_arg0) :=
  StableHlo.after_of_forall_not_mem _ _ (List.forall_iff_forall_mem.mp (by
    simp only [ops, List.Forall, StableHlo.nullary_writes, StableHlo.unary_writes, StableHlo.binary_writes, StableHlo.reshape_writes, Finset.mem_singleton]
    repeat' apply And.intro
    all_goals exact StableHlo.devRef_ne_of_ne (by decide)))
theorem after_arg1 : after ops W (Proc.devRef .tc main_arg1) = W (Proc.devRef .tc main_arg1) :=
  StableHlo.after_of_forall_not_mem _ _ (List.forall_iff_forall_mem.mp (by
    simp only [ops, List.Forall, StableHlo.nullary_writes, StableHlo.unary_writes, StableHlo.binary_writes, StableHlo.reshape_writes, Finset.mem_singleton]
    repeat' apply And.intro
    all_goals exact StableHlo.devRef_ne_of_ne (by decide)))
theorem after_arg2 : after ops W (Proc.devRef .tc main_arg2) = W (Proc.devRef .tc main_arg2) :=
  StableHlo.after_of_forall_not_mem _ _ (List.forall_iff_forall_mem.mp (by
    simp only [ops, List.Forall, StableHlo.nullary_writes, StableHlo.unary_writes, StableHlo.binary_writes, StableHlo.reshape_writes, Finset.mem_singleton]
    repeat' apply And.intro
    all_goals exact StableHlo.devRef_ne_of_ne (by decide)))
theorem after_arg3 : after ops W (Proc.devRef .tc main_arg3) = W (Proc.devRef .tc main_arg3) :=
  StableHlo.after_of_forall_not_mem _ _ (List.forall_iff_forall_mem.mp (by
    simp only [ops, List.Forall, StableHlo.nullary_writes, StableHlo.unary_writes, StableHlo.binary_writes, StableHlo.reshape_writes, Finset.mem_singleton]
    repeat' apply And.intro
    all_goals exact StableHlo.devRef_ne_of_ne (by decide)))
theorem after_arg4 : after ops W (Proc.devRef .tc main_arg4) = W (Proc.devRef .tc main_arg4) :=
  StableHlo.after_of_forall_not_mem _ _ (List.forall_iff_forall_mem.mp (by
    simp only [ops, List.Forall, StableHlo.nullary_writes, StableHlo.unary_writes, StableHlo.binary_writes, StableHlo.reshape_writes, Finset.mem_singleton]
    repeat' apply And.intro
    all_goals exact StableHlo.devRef_ne_of_ne (by decide)))

/-- On every device, from any memory with zero counters: every weakly fair execution of the reference's @main terminates
    with the result buffer at `result` of the launched arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v36).trans (after_result _), (h c main_arg0).trans (after_arg0 _),
      (h c main_arg1).trans (after_arg1 _), (h c main_arg2).trans (after_arg2 _), (h c main_arg3).trans (after_arg3 _),
      (h c main_arg4).trans (after_arg4 _)⟩)
    (run_seq scopedRefs_eq scopedSems_eq defs main (fun _ => ops) main_eq (fun _ => ops_sub) m ρ)

end Cert.ReferenceIdeal.RefRun

end
-- ==== Proof.RValue.lean ====
/-
  The reference's result, read at an index.

  Entry (n, d, 0, 0) of the reference's result is the concatenated form of the fuser (Proof/Spec.lean `pooledCat`) of
  batch row `n` of the input and the four weights as the reference holds them: each `dot_general` is the sum over its
  contracted coordinate with the batch coordinate carried along, the reductions over the last axis are the row maximum
  (from −∞) and the row sum (from zero), the broadcasts repeat a row's number along the row, the `concatenate` joins the
  mix and the query along the last axis, and the final reduction is the sum over the sequence axis.
-/
import proofs.«106665_j65060164600006_2_alg».proof.Proof.RefDefs
import proofs.«106665_j65060164600006_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- Batch row `n` of a 256 × 512 × 512 array as a matrix of extended reals. -/
def row (x : A3 Ideal) (n : Fin 256) : Cert.Spec.Mat 512 512 := fun l e => x (ix3 n l e)

/-- A 512 × 512 weight as a matrix of extended reals. -/
def mat (w : W2 Ideal) : Cert.Spec.Mat 512 512 := fun a b => w (ix2 a b)

/-- A 512 × 1024 weight as a matrix of extended reals. -/
def matO (o : O2 Ideal) : Cert.Spec.Mat 512 1024 := fun a b => o (ix2 a b)

/-- The query projection, one batch row at a time: q[n,l,e] = Σ_d x[n,l,d] · w[e,d]. -/
theorem query_row (x : A3 Ideal) (w : W2 Ideal) (n : Fin 256) :
    row (query (F := Ideal) x w) n = Cert.Spec.mul (row x n) (Cert.Spec.tr (mat w)) := by
  funext l e
  show query (F := Ideal) x w (ix3 n l e) = ∑ d : Fin 512, x (ix3 n l d) * w (ix2 e d)
  unfold query
  simp only [Host.dotGeneral]
  rw [Ideal.dotGeneral_apply,
    ← Equiv.sum_comp (ValueIdx.contrEquiv1 dot_S256x512x512_S512x512_S256x512x512_2_1_01_0_n_n 512 rfl rfl).symm]
  refine Finset.sum_congr rfl fun k _ => ?_
  have hk := ValueIdx.contrEquiv1_symm_val dot_S256x512x512_S512x512_S256x512x512_2_1_01_0_n_n 512 rfl rfl k
  have el : dot_S256x512x512_S512x512_S256x512x512_2_1_01_0_n_n.lhsIdx (ix3 n l e)
      ((ValueIdx.contrEquiv1 dot_S256x512x512_S512x512_S256x512x512_2_1_01_0_n_n 512 rfl rfl).symm k) = ix3 n l k :=
    funext fun a => Fin.ext (by
      match a with
      | ⟨0, _⟩ =>
        show (dot_S256x512x512_S512x512_S256x512x512_2_1_01_0_n_n.lhsIdx (ix3 n l e) _ 0).val = n.val
        unfold DotDims.lhsIdx
        rw [dif_neg (show ¬(0 : Fin _) ∈ dot_S256x512x512_S512x512_S256x512x512_2_1_01_0_n_n.lhsBatch by decide),
          dif_pos (show (0 : Fin _) ∈ dot_S256x512x512_S512x512_S256x512x512_2_1_01_0_n_n.lhsNonContracting by decide)]
        rfl
      | ⟨1, _⟩ =>
        show (dot_S256x512x512_S512x512_S256x512x512_2_1_01_0_n_n.lhsIdx (ix3 n l e) _ 1).val = l.val
        unfold DotDims.lhsIdx
        rw [dif_neg (show ¬(1 : Fin _) ∈ dot_S256x512x512_S512x512_S256x512x512_2_1_01_0_n_n.lhsBatch by decide),
          dif_pos (show (1 : Fin _) ∈ dot_S256x512x512_S512x512_S256x512x512_2_1_01_0_n_n.lhsNonContracting by decide)]
        rfl
      | ⟨2, _⟩ =>
        exact (dot_S256x512x512_S512x512_S256x512x512_2_1_01_0_n_n.lhsIdx_val_of_single rfl (ix3 n l e) _).trans hk)
  have er : dot_S256x512x512_S512x512_S256x512x512_2_1_01_0_n_n.rhsIdx (ix3 n l e)
      ((ValueIdx.contrEquiv1 dot_S256x512x512_S512x512_S256x512x512_2_1_01_0_n_n 512 rfl rfl).symm k) = ix2 e k :=
    funext fun a => Fin.ext (by
      match a with
      | ⟨0, _⟩ =>
        show (dot_S256x512x512_S512x512_S256x512x512_2_1_01_0_n_n.rhsIdx (ix3 n l e) _ 0).val = e.val
        unfold DotDims.rhsIdx
        rw [dif_neg (show ¬(0 : Fin _) ∈ dot_S256x512x512_S512x512_S256x512x512_2_1_01_0_n_n.rhsBatch by decide),
          dif_pos (show (0 : Fin _) ∈ dot_S256x512x512_S512x512_S256x512x512_2_1_01_0_n_n.rhsNonContracting by decide)]
        rfl
      | ⟨1, _⟩ =>
        exact (dot_S256x512x512_S512x512_S256x512x512_2_1_01_0_n_n.rhsIdx_val_of_single rfl (ix3 n l e) _).trans hk)
  rw [el, er]

/-- The scores of a batch row: s[n,l,m] = Σ_d q[n,l,d] · x[n,m,d]. -/
theorem scores_row (q x : A3 Ideal) (n : Fin 256) :
    row (scores (F := Ideal) q x) n = Cert.Spec.scores (row q n) (row x n) := by
  funext l m
  show scores (F := Ideal) q x (ix3 n l m) = ∑ d : Fin 512, q (ix3 n l d) * x (ix3 n m d)
  unfold scores
  simp only [Host.dotGeneral]
  rw [Ideal.dotGeneral_apply,
    ← Equiv.sum_comp (ValueIdx.contrEquiv1 dot_S256x512x512_S256x512x512_S256x512x512_2_2_1_1_0_0 512 rfl rfl).symm]
  refine Finset.sum_congr rfl fun k _ => ?_
  have hk := ValueIdx.contrEquiv1_symm_val dot_S256x512x512_S256x512x512_S256x512x512_2_2_1_1_0_0 512 rfl rfl k
  have el : dot_S256x512x512_S256x512x512_S256x512x512_2_2_1_1_0_0.lhsIdx (ix3 n l m)
      ((ValueIdx.contrEquiv1 dot_S256x512x512_S256x512x512_S256x512x512_2_2_1_1_0_0 512 rfl rfl).symm k) = ix3 n l k :=
    funext fun a => Fin.ext (by
      match a with
      | ⟨0, _⟩ =>
        show (dot_S256x512x512_S256x512x512_S256x512x512_2_2_1_1_0_0.lhsIdx (ix3 n l m) _ 0).val = n.val
        unfold DotDims.lhsIdx
        rw [dif_pos (show (0 : Fin _) ∈ dot_S256x512x512_S256x512x512_S256x512x512_2_2_1_1_0_0.lhsBatch by decide)]
        rfl
      | ⟨1, _⟩ =>
        show (dot_S256x512x512_S256x512x512_S256x512x512_2_2_1_1_0_0.lhsIdx (ix3 n l m) _ 1).val = l.val
        unfold DotDims.lhsIdx
        rw [dif_neg (show ¬(1 : Fin _) ∈ dot_S256x512x512_S256x512x512_S256x512x512_2_2_1_1_0_0.lhsBatch by decide),
          dif_pos (show (1 : Fin _) ∈ dot_S256x512x512_S256x512x512_S256x512x512_2_2_1_1_0_0.lhsNonContracting by decide)]
        rfl
      | ⟨2, _⟩ =>
        exact (dot_S256x512x512_S256x512x512_S256x512x512_2_2_1_1_0_0.lhsIdx_val_of_single rfl (ix3 n l m) _).trans hk)
  have er : dot_S256x512x512_S256x512x512_S256x512x512_2_2_1_1_0_0.rhsIdx (ix3 n l m)
      ((ValueIdx.contrEquiv1 dot_S256x512x512_S256x512x512_S256x512x512_2_2_1_1_0_0 512 rfl rfl).symm k) = ix3 n m k :=
    funext fun a => Fin.ext (by
      match a with
      | ⟨0, _⟩ =>
        show (dot_S256x512x512_S256x512x512_S256x512x512_2_2_1_1_0_0.rhsIdx (ix3 n l m) _ 0).val = n.val
        unfold DotDims.rhsIdx
        rw [dif_pos (show (0 : Fin _) ∈ dot_S256x512x512_S256x512x512_S256x512x512_2_2_1_1_0_0.rhsBatch by decide)]
        rfl
      | ⟨1, _⟩ =>
        show (dot_S256x512x512_S256x512x512_S256x512x512_2_2_1_1_0_0.rhsIdx (ix3 n l m) _ 1).val = m.val
        unfold DotDims.rhsIdx
        rw [dif_neg (show ¬(1 : Fin _) ∈ dot_S256x512x512_S256x512x512_S256x512x512_2_2_1_1_0_0.rhsBatch by decide),
          dif_pos (show (1 : Fin _) ∈ dot_S256x512x512_S256x512x512_S256x512x512_2_2_1_1_0_0.rhsNonContracting by decide)]
        rfl
      | ⟨2, _⟩ =>
        exact (dot_S256x512x512_S256x512x512_S256x512x512_2_2_1_1_0_0.rhsIdx_val_of_single rfl (ix3 n l m) _).trans hk)
  rw [el, er]

/-- The word 0xFF800000 denotes −∞. -/
theorem ofBits_negInf : Ideal.ofBits .f32 0xFF800000#32 = (⊥ : EReal) := by simp [Ideal.ofBits, Ideal.ieee]

/-- The row maximum, read at a row. -/
theorem rowMax_read (s : A3 Ideal) (n : Fin 256) (l : Fin 512) :
    rowMax (F := Ideal) s (ix2 n l) = Cert.Spec.rowMax (row s n) l := by
  have hR : S256x512x512.Reduces [2] S256x512 := by decide
  unfold rowMax
  rw [maximumf_apply,
    broadcastInDim_apply (![] : Fin 0 → Fin S256x512.rank) bcast_S_S256x512 _ (ix2 n l) ix0 (fun a => a.elim0),
    constant_apply, ofBits_negInf, max_bot_left]
  refine (Host.reduce_eq_fold_single (FloatOps.maximumf (F := Ideal) (φ := .f32)) s _ reducesTo_S256x512x512_S256x512_d2 hR h_S_ (ix2 n l)).trans ?_
  show (Finset.univ : Finset (Fin 512)).fold max (Ideal.ofBits .f32 0xFF800000#32) (fun k => s (hR.lift (ix2 n l) k))
    = (Finset.univ : Finset (Fin 512)).fold max ⊥ (fun k => s (ix3 n l k))
  rw [ofBits_negInf]
  congr 1
  funext k
  refine congrArg s (funext fun a => Fin.ext ?_)
  match a with
  | ⟨0, _⟩ => rfl
  | ⟨1, _⟩ => rfl
  | ⟨2, _⟩ => rfl

/-- A row's number repeated along the row. -/
theorem spread_read (v : A2 Ideal) (n : Fin 256) (l m : Fin 512) :
    spread (F := Ideal) v (ix3 n l m) = v (ix2 n l) := by
  unfold spread
  refine (broadcastInDim_apply (![0, 1, 2] : Fin 3 → Fin S256x512x512.rank) bcast_S256x512x1_S256x512x512_0_1_2 _
    (ix3 n l m) (ix3 n l (0 : Fin 1)) (fun a => by
      match a with
      | ⟨0, _⟩ => rfl
      | ⟨1, _⟩ => rfl
      | ⟨2, _⟩ => rfl)).trans ?_
  exact broadcastInDim_apply (![0, 1] : Fin 2 → Fin S256x512x1.rank) bcast_S256x512_S256x512x1_0_1 v
    (ix3 n l (0 : Fin 1)) (ix2 n l) (fun a => by
      match a with
      | ⟨0, _⟩ => rfl
      | ⟨1, _⟩ => rfl)

/-- The exponentials of a row's scores less the row maximum. -/
theorem expo_row (s : A3 Ideal) (n : Fin 256) : row (expo (F := Ideal) s) n = Cert.Spec.expo (row s n) := by
  funext l m
  show Ideal.exp (s (ix3 n l m) - spread (F := Ideal) (rowMax (F := Ideal) s) (ix3 n l m))
    = Ideal.exp (s (ix3 n l m) - Cert.Spec.rowMax (row s n) l)
  rw [spread_read, rowMax_read]

/-- The row sum, read at a row. -/
theorem rowSum_read (e : A3 Ideal) (n : Fin 256) (l : Fin 512) :
    rowSum (F := Ideal) e (ix2 n l) = ∑ m : Fin 512, e (ix3 n l m) := by
  have hR : S256x512x512.Reduces [2] S256x512 := by decide
  unfold rowSum Host.reduceAdd
  rw [Ideal.hostReduceAdd_def, Ideal.hostReduceAdd_single _ hR, constant_apply, Ideal.ofBits_zero_f32, zero_add]
  show ∑ k : Fin 512, e (hR.lift (ix2 n l) k) = _
  refine Finset.sum_congr rfl fun m _ => congrArg e (funext fun a => Fin.ext ?_)
  match a with
  | ⟨0, _⟩ => rfl
  | ⟨1, _⟩ => rfl
  | ⟨2, _⟩ => rfl

/-- The softmax of a row's scores. -/
theorem softmax_row (s : A3 Ideal) (n : Fin 256) : row (softmax (F := Ideal) s) n = Cert.Spec.softmax (row s n) := by
  funext l m
  show Ideal.div (expo (F := Ideal) s (ix3 n l m)) (spread (F := Ideal) (rowSum (F := Ideal) (expo (F := Ideal) s)) (ix3 n l m))
    = Ideal.div (Cert.Spec.expo (row s n) l m) (∑ m' : Fin 512, Cert.Spec.expo (row s n) l m')
  rw [spread_read, rowSum_read, ← expo_row]
  rfl

/-- The mix of a batch row: Σ_m p[n,l,m] · x[n,m,d]. -/
theorem mix_row (p x : A3 Ideal) (n : Fin 256) :
    row (mix (F := Ideal) p x) n = Cert.Spec.mul (row p n) (row x n) := by
  funext l e
  show mix (F := Ideal) p x (ix3 n l e) = ∑ d : Fin 512, p (ix3 n l d) * x (ix3 n d e)
  unfold mix
  simp only [Host.dotGeneral]
  rw [Ideal.dotGeneral_apply,
    ← Equiv.sum_comp (ValueIdx.contrEquiv1 dot_S256x512x512_S256x512x512_S256x512x512_2_1_1_2_0_0 512 rfl rfl).symm]
  refine Finset.sum_congr rfl fun k _ => ?_
  have hk := ValueIdx.contrEquiv1_symm_val dot_S256x512x512_S256x512x512_S256x512x512_2_1_1_2_0_0 512 rfl rfl k
  have el : dot_S256x512x512_S256x512x512_S256x512x512_2_1_1_2_0_0.lhsIdx (ix3 n l e)
      ((ValueIdx.contrEquiv1 dot_S256x512x512_S256x512x512_S256x512x512_2_1_1_2_0_0 512 rfl rfl).symm k) = ix3 n l k :=
    funext fun a => Fin.ext (by
      match a with
      | ⟨0, _⟩ =>
        show (dot_S256x512x512_S256x512x512_S256x512x512_2_1_1_2_0_0.lhsIdx (ix3 n l e) _ 0).val = n.val
        unfold DotDims.lhsIdx
        rw [dif_pos (show (0 : Fin _) ∈ dot_S256x512x512_S256x512x512_S256x512x512_2_1_1_2_0_0.lhsBatch by decide)]
        rfl
      | ⟨1, _⟩ =>
        show (dot_S256x512x512_S256x512x512_S256x512x512_2_1_1_2_0_0.lhsIdx (ix3 n l e) _ 1).val = l.val
        unfold DotDims.lhsIdx
        rw [dif_neg (show ¬(1 : Fin _) ∈ dot_S256x512x512_S256x512x512_S256x512x512_2_1_1_2_0_0.lhsBatch by decide),
          dif_pos (show (1 : Fin _) ∈ dot_S256x512x512_S256x512x512_S256x512x512_2_1_1_2_0_0.lhsNonContracting by decide)]
        rfl
      | ⟨2, _⟩ =>
        exact (dot_S256x512x512_S256x512x512_S256x512x512_2_1_1_2_0_0.lhsIdx_val_of_single rfl (ix3 n l e) _).trans hk)
  have er : dot_S256x512x512_S256x512x512_S256x512x512_2_1_1_2_0_0.rhsIdx (ix3 n l e)
      ((ValueIdx.contrEquiv1 dot_S256x512x512_S256x512x512_S256x512x512_2_1_1_2_0_0 512 rfl rfl).symm k) = ix3 n k e :=
    funext fun a => Fin.ext (by
      match a with
      | ⟨0, _⟩ =>
        show (dot_S256x512x512_S256x512x512_S256x512x512_2_1_1_2_0_0.rhsIdx (ix3 n l e) _ 0).val = n.val
        unfold DotDims.rhsIdx
        rw [dif_pos (show (0 : Fin _) ∈ dot_S256x512x512_S256x512x512_S256x512x512_2_1_1_2_0_0.rhsBatch by decide)]
        rfl
      | ⟨1, _⟩ =>
        exact (dot_S256x512x512_S256x512x512_S256x512x512_2_1_1_2_0_0.rhsIdx_val_of_single rfl (ix3 n l e) _).trans hk
      | ⟨2, _⟩ =>
        show (dot_S256x512x512_S256x512x512_S256x512x512_2_1_1_2_0_0.rhsIdx (ix3 n l e) _ 2).val = e.val
        unfold DotDims.rhsIdx
        rw [dif_neg (show ¬(2 : Fin _) ∈ dot_S256x512x512_S256x512x512_S256x512x512_2_1_1_2_0_0.rhsBatch by decide),
          dif_pos (show (2 : Fin _) ∈ dot_S256x512x512_S256x512x512_S256x512x512_2_1_1_2_0_0.rhsNonContracting by decide)]
        rfl)
  rw [el, er]

/-- The joined rows [mix, q], read at an index: the mix below column 512, the query from column 512 on. -/
theorem cat_read (mx q : A3 Ideal) (n : Fin 256) (l : Fin 512) (c : Fin 1024) :
    concatenate S256x512x1024 2 [⟨S256x512x512, mx⟩, ⟨S256x512x512, q⟩]
        concatenates_S256x512x512_S256x512x512_S256x512x1024_d2 (ix3 n l c)
      = Cert.Spec.cat (row mx n) (row q n) l c := by
  unfold Cert.Spec.cat
  by_cases h : c.val < 512
  · rw [dif_pos h]
    exact concatenate_pair_apply_left (2 : Fin S256x512x1024.rank) mx q _ (ix3 n l c) rfl (ix3 n l ⟨c.val, h⟩)
      (fun b => by
        match b with
        | ⟨0, _⟩ => rfl
        | ⟨1, _⟩ => rfl
        | ⟨2, _⟩ => rfl)
  · rw [dif_neg h]
    exact concatenate_pair_apply_right (2 : Fin S256x512x1024.rank) mx q _ (ix3 n l c) rfl rfl
      (ix3 n l ⟨c.val - 512, by omega⟩)
      (fun b hb => by
        match b, hb with
        | ⟨0, _⟩, _ => rfl
        | ⟨1, _⟩, _ => rfl
        | ⟨2, _⟩, hb => exact absurd rfl hb)
      (by show (c.val - 512) + 512 = c.val; omega)

/-- The output projection of a batch row's joined rows: Σ_c [mix, q][n,l,c] · o[d,c]. -/
theorem out_row (mx q : A3 Ideal) (o : O2 Ideal) (n : Fin 256) :
    row (out (F := Ideal) mx q o) n = Cert.Spec.outCat (row mx n) (row q n) (matO o) := by
  funext l d
  show out (F := Ideal) mx q o (ix3 n l d) = ∑ c : Fin 1024, Cert.Spec.cat (row mx n) (row q n) l c * o (ix2 d c)
  unfold out
  simp only [Host.dotGeneral]
  rw [Ideal.dotGeneral_apply,
    ← Equiv.sum_comp (ValueIdx.contrEquiv1 dot_S256x512x1024_S512x1024_S256x512x512_2_1_01_0_n_n 1024 rfl rfl).symm]
  refine Finset.sum_congr rfl fun k _ => ?_
  have hk := ValueIdx.contrEquiv1_symm_val dot_S256x512x1024_S512x1024_S256x512x512_2_1_01_0_n_n 1024 rfl rfl k
  have el : dot_S256x512x1024_S512x1024_S256x512x512_2_1_01_0_n_n.lhsIdx (ix3 n l d)
      ((ValueIdx.contrEquiv1 dot_S256x512x1024_S512x1024_S256x512x512_2_1_01_0_n_n 1024 rfl rfl).symm k) = ix3 n l k :=
    funext fun a => Fin.ext (by
      match a with
      | ⟨0, _⟩ =>
        show (dot_S256x512x1024_S512x1024_S256x512x512_2_1_01_0_n_n.lhsIdx (ix3 n l d) _ 0).val = n.val
        unfold DotDims.lhsIdx
        rw [dif_neg (show ¬(0 : Fin _) ∈ dot_S256x512x1024_S512x1024_S256x512x512_2_1_01_0_n_n.lhsBatch by decide),
          dif_pos (show (0 : Fin _) ∈ dot_S256x512x1024_S512x1024_S256x512x512_2_1_01_0_n_n.lhsNonContracting by decide)]
        rfl
      | ⟨1, _⟩ =>
        show (dot_S256x512x1024_S512x1024_S256x512x512_2_1_01_0_n_n.lhsIdx (ix3 n l d) _ 1).val = l.val
        unfold DotDims.lhsIdx
        rw [dif_neg (show ¬(1 : Fin _) ∈ dot_S256x512x1024_S512x1024_S256x512x512_2_1_01_0_n_n.lhsBatch by decide),
          dif_pos (show (1 : Fin _) ∈ dot_S256x512x1024_S512x1024_S256x512x512_2_1_01_0_n_n.lhsNonContracting by decide)]
        rfl
      | ⟨2, _⟩ =>
        exact (dot_S256x512x1024_S512x1024_S256x512x512_2_1_01_0_n_n.lhsIdx_val_of_single rfl (ix3 n l d) _).trans hk)
  have er : dot_S256x512x1024_S512x1024_S256x512x512_2_1_01_0_n_n.rhsIdx (ix3 n l d)
      ((ValueIdx.contrEquiv1 dot_S256x512x1024_S512x1024_S256x512x512_2_1_01_0_n_n 1024 rfl rfl).symm k) = ix2 d k :=
    funext fun a => Fin.ext (by
      match a with
      | ⟨0, _⟩ =>
        show (dot_S256x512x1024_S512x1024_S256x512x512_2_1_01_0_n_n.rhsIdx (ix3 n l d) _ 0).val = d.val
        unfold DotDims.rhsIdx
        rw [dif_neg (show ¬(0 : Fin _) ∈ dot_S256x512x1024_S512x1024_S256x512x512_2_1_01_0_n_n.rhsBatch by decide),
          dif_pos (show (0 : Fin _) ∈ dot_S256x512x1024_S512x1024_S256x512x512_2_1_01_0_n_n.rhsNonContracting by decide)]
        rfl
      | ⟨1, _⟩ =>
        exact (dot_S256x512x1024_S512x1024_S256x512x512_2_1_01_0_n_n.rhsIdx_val_of_single rfl (ix3 n l d) _).trans hk)
  rw [el, er, cat_read]

/-- The mix of one attention block, one batch row at a time. -/
theorem blockMix_row (x : A3 Ideal) (w : W2 Ideal) (n : Fin 256) :
    row (blockMix (F := Ideal) x w) n
      = Cert.Spec.attnMix (row x n) (Cert.Spec.mul (row x n) (Cert.Spec.tr (mat w))) := by
  unfold blockMix Cert.Spec.attnMix
  rw [mix_row, softmax_row, scores_row, query_row]

/-- One attention block, one batch row at a time. -/
theorem block_row (x : A3 Ideal) (w : W2 Ideal) (o : O2 Ideal) (n : Fin 256) :
    row (block (F := Ideal) x w o) n = Cert.Spec.blockCat (row x n) (mat w) (matO o) := by
  unfold block Cert.Spec.blockCat
  rw [out_row, blockMix_row, query_row]

/-- The hyperbolic tangent, entry by entry. -/
theorem tanh_row (y : A3 Ideal) (n : Fin 256) : row (Host.tanh (F := Ideal) (φ := .f32) y) n = Cert.Spec.th (row y n) := rfl

/-- The mean over the sequence axis of the output projection, read at (n, d, 0, 0): the reshape keeps the row-major
    position, the sum over the sequence axis starts from zero, and the divisor is the broadcast literal. -/
theorem pool_read (mx q : A3 Ideal) (o : O2 Ideal) (n : Fin 256) (d : Fin 512) :
    pool (F := Ideal) mx q o (ix4 n d 0 0)
      = Cert.Spec.colMean (Cert.Spec.outCat (row mx n) (row q n) (matO o)) (Ideal.ofBits .f32 0x44000000#32) d := by
  have hR : S256x512x512.Reduces [1] S256x512 := by decide
  unfold pool
  refine (shapeCast_apply _ shapeCasts_S256x512_S256x512x1x1 (ix4 n d 0 0) (ix2 n d) ?_).trans ?_
  · rw [Shape.rowMajor_val_two, Shape.rowMajor_val_four]
    show n.val * 512 + d.val = ((n.val * 512 + d.val) * 1 + 0) * 1 + 0
    omega
  · show Ideal.div _ _ = Ideal.div _ _
    congr 1
    unfold Host.reduceAdd
    rw [Ideal.hostReduceAdd_def, Ideal.hostReduceAdd_single _ hR, constant_apply, Ideal.ofBits_zero_f32, zero_add]
    show ∑ k : Fin 512, out (F := Ideal) mx q o (hR.lift (ix2 n d) k)
      = ∑ l : Fin 512, Cert.Spec.outCat (row mx n) (row q n) (matO o) l d
    refine Finset.sum_congr rfl fun l _ => ?_
    rw [← out_row]
    show _ = out (F := Ideal) mx q o (ix3 n l d)
    refine congrArg _ (funext fun a => Fin.ext ?_)
    match a with
    | ⟨0, _⟩ => rfl
    | ⟨1, _⟩ => rfl
    | ⟨2, _⟩ => rfl

/-- Entry (n, d, 0, 0) of the reference's result is the concatenated form of the fuser of batch row `n`; 512 is the
    literal the program divides the sequence sums by. -/
theorem result_read (x : A3 Ideal) (w1 : W2 Ideal) (o1 : O2 Ideal) (w2 : W2 Ideal) (o2 : O2 Ideal) (n : Fin 256) (d : Fin 512) :
    result (F := Ideal) x w1 o1 w2 o2 (ix4 n d 0 0)
      = Cert.Spec.pooledCat (row x n) (mat w1) (matO o1) (mat w2) (matO o2) (Ideal.ofBits .f32 0x44000000#32) d := by
  unfold result
  rw [pool_read, blockMix_row, query_row, tanh_row, block_row]
  rfl

end Cert.ReferenceIdeal.RefValue

end
-- ==== Proof.lean ====
/-
  The certificate of the two-block attention fuser: the kernel against its jnp reference, over the extended reals.

  Both programs compute, for each of the 256 batch rows `x` (512 × 512), the mean over the sequence of
  block₂(tanh(block₁(x))), where a block is a query projection, scores against the row itself, a softmax over the keys,
  the mix, and a bias-free output projection of the joined row [mix, q]. The kernel holds the weights transposed and each
  output weight cut in two, contracts [mix, q] as two products added, and in the second block averages `mix` and `q` over
  the sequence BEFORE the output projection; the reference contracts the joined row in one sum and averages last.

  * The frames of the two kernel programs are the generated ones; the reference's is its run (Proof/RefRun.lean) with the
    result dropped. The idealization rewrote nothing, so there is nothing to preserve.
  * The kernel's run leaves in its result the split form of the fuser of each batch row (Proof/KRun.lean, over the body's
    value Proof/KValue.lean and the blocks Proof/KBlocks.lean, Proof/KHost.lean); the reference's run leaves the
    concatenated form (Proof/RefRun.lean, Proof/RValue.lean).
  * The two forms are one function (Proof/Spec.lean): splitting the 1024-wide contraction is associativity and
    commutativity of addition; moving the mean through the second block's projection is distributivity, valid because
    the second block's input is a `tanh`, hence real, and its weights are finite by the precondition
    (Proof/PreFinite.lean). The divisor is the literal 512.0 on both sides.
-/
import proofs.«106665_j65060164600006_2_alg».proof.Defs
import proofs.«106665_j65060164600006_2_alg».proof.Proof.Gen.Kernel
import proofs.«106665_j65060164600006_2_alg».proof.Proof.Gen.Kernel.Skeleton
import proofs.«106665_j65060164600006_2_alg».proof.Proof.Gen.Kernel.Launch
import proofs.«106665_j65060164600006_2_alg».proof.Proof.Gen.Kernel.Points
import proofs.«106665_j65060164600006_2_alg».proof.Proof.Gen.Kernel.Frame
import proofs.«106665_j65060164600006_2_alg».proof.Proof.Gen.KernelIdeal
import proofs.«106665_j65060164600006_2_alg».proof.Proof.Gen.KernelIdeal.Skeleton
import proofs.«106665_j65060164600006_2_alg».proof.Proof.Gen.KernelIdeal.Launch
import proofs.«106665_j65060164600006_2_alg».proof.Proof.Gen.KernelIdeal.Points
import proofs.«106665_j65060164600006_2_alg».proof.Proof.Gen.KernelIdeal.Frame
import proofs.«106665_j65060164600006_2_alg».proof.Proof.Gen.ReferenceIdeal
import proofs.«106665_j65060164600006_2_alg».proof.Proof.Gen.Pre_finite_inputs
import proofs.«106665_j65060164600006_2_alg».proof.Proof.Spec
import proofs.«106665_j65060164600006_2_alg».proof.Proof.PreFinite
import proofs.«106665_j65060164600006_2_alg».proof.Proof.KRun
import proofs.«106665_j65060164600006_2_alg».proof.Proof.RefRun
import proofs.«106665_j65060164600006_2_alg».proof.Proof.RValue
import Idealize.ShloMosaic.Adequacy
import Idealize.ShloMosaic.Init

noncomputable section

namespace Cert.Proof

open Idealize.ShloMosaic Idealize.SL.Sem Idealize.ShloMosaic.ValueIdx

/-- The literal `512.0` both programs divide by denotes the real 512. -/
theorem ofBits_512 : Ideal.ofBits .f32 0x44000000#32 = ((512 : ℝ) : EReal) := by
  simp [Ideal.ofBits, Ideal.ieee, -EReal.coe_mul]; norm_num

/-- The reference's result and the kernel's are one function of the five arguments, when every entry of the second
    block's two weights is a real: at (n, d, 0, 0) the concatenated and the split form of the fuser of batch row `n`. -/
theorem result_eq (x : Cert.KernelIdeal.S256x512x512.Idx → EReal) (w1 : Cert.KernelIdeal.S512x512.Idx → EReal)
    (o1 : Cert.KernelIdeal.S512x1024.Idx → EReal) (w2 : Cert.KernelIdeal.S512x512.Idx → EReal)
    (o2 : Cert.KernelIdeal.S512x1024.Idx → EReal)
    (hw2 : ∀ i, ∃ r : ℝ, w2 i = (r : EReal)) (ho2 : ∀ i, ∃ r : ℝ, o2 i = (r : EReal)) :
    Cert.ReferenceIdeal.RefValue.result (F := Ideal) x w1 o1 w2 o2 = Cert.KernelIdeal.KRun.result x w1 o1 w2 o2 := by
  funext i
  have h2 : (i 2).val < 1 := (i 2).isLt
  have h3 : (i 3).val < 1 := (i 3).isLt
  have hi : i = ix4 (⟨(i 0).val, (i 0).isLt⟩ : Fin 256) (⟨(i 1).val, (i 1).isLt⟩ : Fin 512) (0 : Fin 1) (0 : Fin 1) := by
    funext a; apply Fin.ext
    match a with
    | ⟨0, _⟩ => rfl
    | ⟨1, _⟩ => rfl
    | ⟨2, _⟩ => show (i 2).val = 0; omega
    | ⟨3, _⟩ => show (i 3).val = 0; omega
  refine ((congrArg (Cert.ReferenceIdeal.RefValue.result (F := Ideal) x w1 o1 w2 o2) hi).trans
    (Cert.ReferenceIdeal.RefValue.result_read x w1 o1 w2 o2 _ _)).trans ?_
  show _ = Cert.KernelIdeal.KRun.pooled x w1 o1 w2 o2 _ _
  unfold Cert.KernelIdeal.KRun.pooled
  rw [ofBits_512]
  exact (congrFun (Cert.Spec.pooledSplit_eq_pooledCat (Cert.KernelIdeal.KRun.rowX x ⟨(i 0).val, (i 0).isLt⟩)
    (Cert.KernelIdeal.KRun.matW w1) (Cert.KernelIdeal.KRun.matO o1) (Cert.KernelIdeal.KRun.matW w2) (Cert.KernelIdeal.KRun.matO o2)
    (fun _ _ => hw2 _) (fun _ _ => ho2 _) 512 (by norm_num)) ⟨(i 1).val, (i 1).isLt⟩).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs run, and end with the same result: the kernel's run leaves the
    split form, the reference's the concatenated form, and under the precondition they are one function. -/
theorem algebraic : Cert.algebraic_KernelIdeal_ReferenceIdeal := by
  intro m ρ m' ρ' hpre hagree
  refine ⟨fun c => Cert.KernelIdeal.KRun.result (Cert.KernelIdeal.KHost.aX m c) (Cert.KernelIdeal.KHost.aW1 m c)
    (Cert.KernelIdeal.KHost.aO1 m c) (Cert.KernelIdeal.KHost.aW2 m c) (Cert.KernelIdeal.KHost.aO2 m c),
    Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4⟩ := hagree c
  rw [e0, e1, e2, e3, e4]
  obtain ⟨hw2, ho2⟩ := Cert.Pre_finite_inputs.Finite.real_of_pre _ _ _ _ _ (hpre c)
  exact result_eq _ _ _ _ _ hw2 ho2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
